-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "a_exact_inv_1" .f32 0x3F800000#32 ((1 : ℝ) : EReal)
  ∧ IdealRules.named_const.Statement Cert.KernelIdeal.κ "a_exact_inv_1" .f32 0x3F800000#32 ((1 : ℝ) : EReal)
  ∧ IdealRules.named_const.Statement Cert.KernelIdeal.κ "fold_c_137425209577_137438953472" .f32 0x3F7FF972#32 ((137425209577 / 137438953472 : ℝ) : EReal)
  ∧ IdealRules.named_const.Statement Cert.KernelIdeal.κ "a_exact_inv_1" .f32 0x3F800000#32 ((1 : ℝ) : EReal)
  ∧ IdealRules.named_const.Statement Cert.KernelIdeal.κ "a_exact_inv_1" .f32 0x3F800000#32 ((1 : ℝ) : EReal)
  ∧ IdealRules.named_const.Statement Cert.KernelIdeal.κ "a_exact_inv_1" .f32 0x3F800000#32 ((1 : ℝ) : EReal)
  ∧ IdealRules.named_const.Statement Cert.KernelIdeal.κ "a_exact_inv_1" .f32 0x3F800000#32 ((1 : ℝ) : EReal)
  ∧ IdealRules.named_const.Statement Cert.KernelIdeal.κ "a_exact_inv_1" .f32 0x3F800000#32 ((1 : ℝ) : EReal)
  ∧ IdealRules.named_const.Statement Cert.KernelIdeal.κ "a_exact_inv_1" .f32 0x3F800000#32 ((1 : ℝ) : EReal)
  ∧ IdealRules.named_const.Statement Cert.KernelIdeal.κ "a_exact_inv_1" .f32 0x3F800000#32 ((1 : ℝ) : EReal)
  ∧ IdealRules.named_const.Statement Cert.KernelIdeal.κ "a_exact_inv_1" .f32 0x3F800000#32 ((1 : ℝ) : EReal)
  ∧ IdealRules.named_const.Statement Cert.KernelIdeal.κ "a_exact_inv_1" .f32 0x3F800000#32 ((1 : ℝ) : EReal)
  ∧ IdealRules.named_const.Statement Cert.KernelIdeal.κ "a_exact_inv_1" .f32 0x3F800000#32 ((1 : ℝ) : EReal)
  ∧ IdealRules.named_const.Statement Cert.KernelIdeal.κ "a_exact_inv_1" .f32 0x3F800000#32 ((1 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S256x512 : Shape := ⟨2, ![256, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S2048x512 .f32) (main_arg1 : FVec F S256x512 .f32) (main_arg2 : FVec F S256x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  main_v13
-- ==== Kernel.lean ====
abbrev S2048x512 : Shape := ⟨2, ![2048, 512]⟩
abbrev S256x512 : Shape := ⟨2, ![256, 512]⟩
abbrev S4x256 : Shape := ⟨2, ![4, 256]⟩
abbrev S256 : Shape := ⟨1, ![256]⟩
abbrev S256x1 : Shape := ⟨2, ![256, 1]⟩
abbrev S256x4 : Shape := ⟨2, ![256, 4]⟩
abbrev S2048x256 : Shape := ⟨2, ![2048, 256]⟩
abbrev S512x512 : Shape := ⟨2, ![512, 512]⟩
abbrev S512x256 : Shape := ⟨2, ![512, 256]⟩
abbrev S1x256 : Shape := ⟨2, ![1, 256]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S2048x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S4x256, .f32⟩
  | .hbm, ⟨6, _⟩ => ⟨S2048x256, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S4x256, .f32⟩
  | .local _ .vmem, ⟨5, _⟩ => ⟨S512x512, .f32⟩
  | .local _ .vmem, ⟨6, _⟩ => ⟨S512x512, .f32⟩
  | .local _ .vmem, ⟨7, _⟩ => ⟨S256x512, .f32⟩
  | .local _ .vmem, ⟨8, _⟩ => ⟨S256x512, .f32⟩
  | .local _ .vmem, ⟨9, _⟩ => ⟨S4x256, .f32⟩
  | .local _ .vmem, ⟨10, _⟩ => ⟨S512x256, .f32⟩
  | .local _ .vmem, ⟨11, _⟩ => ⟨S512x256, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S256x512_S256x512_0_0 : ∀ a, (![0, 0] : Fin 2 → Nat) a + S256x512.size a ≤ S256x512.size a
  h_S256x512 : 0 < S256x512.numel
  reduces_S256x512_S256 : S256x512.Reduces [1] S256
  shapeCasts_S256_S256x1 : S256.ShapeCasts S256x1
  broadcasts_S256x1_S256x512 : S256x1.Broadcasts S256x512
  concatenates_S256x1_S256x1_S256x1_S256x1_S256x4_d1 : Shape.Concatenates [S256x1, S256x1, S256x1, S256x1] S256x4 1
  transposes_S256x4_p1_0_S4x256 : S256x4.Transposes [1, 0] S4x256
  inb_S4x256_S4x256_0_0 : ∀ a, (![0, 0] : Fin 2 → Nat) a + S4x256.size a ≤ S4x256.size a
  h_S4x256 : 0 < S4x256.numel
  inb_S512x512_S512x512_0_0 : ∀ a, (![0, 0] : Fin 2 → Nat) a + S512x512.size a ≤ S512x512.size a
  h_S512x512 : 0 < S512x512.numel
  shapeCasts_S256x512_S256x512 : S256x512.ShapeCasts S256x512
  shapeCasts_S4x256_S4x256 : S4x256.ShapeCasts S4x256
  slices_S4x256_o0_0_S1x256 : S4x256.Slices ![0, 0] S1x256
  slices_S4x256_o1_0_S1x256 : S4x256.Slices ![1, 0] S1x256
  slices_S4x256_o2_0_S1x256 : S4x256.Slices ![2, 0] S1x256
  slices_S4x256_o3_0_S1x256 : S4x256.Slices ![3, 0] S1x256
  bitsLt_bf16_f32 : FTy.bits .bf16 < FTy.bits .f32
  transposes_S256x512_p1_0_S512x256 : S256x512.Transposes [1, 0] S512x256
  reduces_S512x512_S512 : S512x512.Reduces [1] S512
  shapeCasts_S512_S512x1 : S512.ShapeCasts S512x1
  broadcasts_S512x1_S512x256 : S512x1.Broadcasts S512x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S256x512.size a
  hwx0_0 : ∀ i : grid0.Coords, EltTy.bits .f32 = 32 ∨ (Rect.block (s := S256x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x256.size a ≤ S4x256.size a
  hwx0_4 : ∀ i : grid0.Coords, EltTy.bits .f32 = 32 ∨ (Rect.block (s := S4x256) S4x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S2048x512.size a
  hwx1_0 : ∀ i : grid1.Coords, EltTy.bits .f32 = 32 ∨ (Rect.block (s := S2048x512) S512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S256x512.size a
  hwx1_1 : ∀ i : grid1.Coords, EltTy.bits .f32 = 32 ∨ (Rect.block (s := S256x512) S256x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S256x512.size a
  hwx1_2 : ∀ i : grid1.Coords, EltTy.bits .f32 = 32 ∨ (Rect.block (s := S256x512) S256x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x256.size a ≤ S4x256.size a
  hwx1_3 : ∀ i : grid1.Coords, EltTy.bits .f32 = 32 ∨ (Rect.block (s := S4x256) S4x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x256.size a ≤ S2048x256.size a
  hwx1_4 : ∀ i : grid1.Coords, EltTy.bits .f32 = 32 ∨ (Rect.block (s := S2048x256) S512x256.size (cc1_transform_4 i) (hinb1_4 i)).WholeWords (EltTy.packing .f32)

variable [Facts₀]

def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg2) S256x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S256x512.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S256x512.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S4x256.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S256x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S256x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_2) S4x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S512x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2048x512 : Shape := ⟨2, ![2048, 512]⟩
abbrev S256x512 : Shape := ⟨2, ![256, 512]⟩
abbrev S_ : Shape := ⟨0, ![]⟩
abbrev S256 : Shape := ⟨1, ![256]⟩
abbrev S256x1 : Shape := ⟨2, ![256, 1]⟩
abbrev S256x2048 : Shape := ⟨2, ![256, 2048]⟩
abbrev S2048 : Shape := ⟨1, ![2048]⟩
abbrev S2048x1 : Shape := ⟨2, ![2048, 1]⟩
abbrev S1x2048 : Shape := ⟨2, ![1, 2048]⟩
abbrev S256x2048x1 : Shape := ⟨3, ![256, 2048, 1]⟩
abbrev S256x1x512 : Shape := ⟨3, ![256, 1, 512]⟩
abbrev S256x2048x512 : Shape := ⟨3, ![256, 2048, 512]⟩
abbrev S256x1x1 : Shape := ⟨3, ![256, 1, 1]⟩
abbrev S1x2048x512 : Shape := ⟨3, ![1, 2048, 512]⟩
abbrev S2048x256 : Shape := ⟨2, ![2048, 256]⟩

abbrev nBuf : Space → Nat
  | .hbm => 183
  | .vmem => 0
  | .smem => 0
  | _ => 0

abbrev hbmTy0_0 (i : Nat) : BufTy := match i % 128 with
  | 0 => ⟨S2048x512, .f32⟩
  | 1 => ⟨S256x512, .f32⟩
  | 2 => ⟨S256x512, .f32⟩
  | 3 => ⟨S_, .f32⟩
  | 4 => ⟨S_, .f32⟩
  | 5 => ⟨S_, .f32⟩
  | 6 => ⟨S256x512, .f32⟩
  | 7 => ⟨S_, .f32⟩
  | 8 => ⟨S256, .f32⟩
  | 9 => ⟨S256x1, .f32⟩
  | 10 => ⟨S256x1, .f32⟩
  | 11 => ⟨S_, .f32⟩
  | 12 => ⟨S256x1, .f32⟩
  | 13 => ⟨S256x1, .f32⟩
  | 14 => ⟨S256x1, .f32⟩
  | 15 => ⟨S256x1, .f32⟩
  | 16 => ⟨S_, .f32⟩
  | 17 => ⟨S_, .f32⟩
  | 18 => ⟨S_, .f32⟩
  | 19 => ⟨S256x1, .f32⟩
  | 20 => ⟨S256x1, .f32⟩
  | 21 => ⟨S_, .f32⟩
  | 22 => ⟨S256x1, .f32⟩
  | 23 => ⟨S256x1, .f32⟩
  | 24 => ⟨S256x1, .f32⟩
  | 25 => ⟨S256x512, .f32⟩
  | 26 => ⟨S256x512, .f32⟩
  | 27 => ⟨S256x1, .f32⟩
  | 28 => ⟨S256x1, .f32⟩
  | 29 => ⟨S256x512, .f32⟩
  | 30 => ⟨S256x512, .f32⟩
  | 31 => ⟨S256x512, .f32⟩
  | 32 => ⟨S_, .f32⟩
  | 33 => ⟨S256, .f32⟩
  | 34 => ⟨S256x1, .f32⟩
  | 35 => ⟨S_, .f32⟩
  | 36 => ⟨S256x1, .f32⟩
  | 37 => ⟨S256x1, .f32⟩
  | 38 => ⟨S_, .f32⟩
  | 39 => ⟨S256x1, .f32⟩
  | 40 => ⟨S256x1, .f32⟩
  | 41 => ⟨S256x512, .f32⟩
  | 42 => ⟨S256x512, .f32⟩
  | 43 => ⟨S256x512, .f32⟩
  | 44 => ⟨S_, .f32⟩
  | 45 => ⟨S256, .f32⟩
  | 46 => ⟨S_, .f32⟩
  | 47 => ⟨S_, .f32⟩
  | 48 => ⟨S_, .f32⟩
  | 49 => ⟨S_, .f32⟩
  | 50 => ⟨S_, .f32⟩
  | 51 => ⟨S256, .f32⟩
  | 52 => ⟨S256, .f32⟩
  | 53 => ⟨S_, .f32⟩
  | 54 => ⟨S256, .f32⟩
  | 55 => ⟨S256, .f32⟩
  | 56 => ⟨S_, .f32⟩
  | 57 => ⟨S256, .f32⟩
  | 58 => ⟨S256, .f32⟩
  | 59 => ⟨S_, .f32⟩
  | 60 => ⟨S256, .f32⟩
  | 61 => ⟨S256, .f32⟩
  | 62 => ⟨S256x512, .f32⟩
  | 63 => ⟨S_, .f32⟩
  | 64 => ⟨S256, .f32⟩
  | 65 => ⟨S256, .f32⟩
  | 66 => ⟨S_, .f32⟩
  | 67 => ⟨S256, .f32⟩
  | 68 => ⟨S256, .f32⟩
  | 69 => ⟨S256, .f32⟩
  | 70 => ⟨S_, .f32⟩
  | 71 => ⟨S_, .f32⟩
  | 72 => ⟨S256, .f32⟩
  | 73 => ⟨S256, .f32⟩
  | 74 => ⟨S256x512, .f32⟩
  | 75 => ⟨S256x2048, .f32⟩
  | 76 => ⟨S256x512, .f32⟩
  | 77 => ⟨S_, .f32⟩
  | 78 => ⟨S256, .f32⟩
  | 79 => ⟨S256x1, .f32⟩
  | 80 => ⟨S2048x512, .f32⟩
  | 81 => ⟨S_, .f32⟩
  | 82 => ⟨S2048, .f32⟩
  | 83 => ⟨S2048x1, .f32⟩
  | 84 => ⟨S_, .f32⟩
  | 85 => ⟨S_, .f32⟩
  | 86 => ⟨S_, .f32⟩
  | 87 => ⟨S256x2048, .f32⟩
  | 88 => ⟨S256x2048, .f32⟩
  | 89 => ⟨S_, .f32⟩
  | 90 => ⟨S256x2048, .f32⟩
  | 91 => ⟨S256x2048, .f32⟩
  | 92 => ⟨S1x2048, .f32⟩
  | 93 => ⟨S_, .f32⟩
  | 94 => ⟨S1x2048, .f32⟩
  | 95 => ⟨S1x2048, .f32⟩
  | 96 => ⟨S256x2048, .f32⟩
  | 97 => ⟨S256x2048, .f32⟩
  | 98 => ⟨S256x2048x1, .f32⟩
  | 99 => ⟨S256x1x512, .f32⟩
  | 100 => ⟨S256x2048x512, .f32⟩
  | 101 => ⟨S256x2048x512, .f32⟩
  | 102 => ⟨S256x2048x512, .f32⟩
  | 103 => ⟨S_, .f32⟩
  | 104 => ⟨S256x1, .f32⟩
  | 105 => ⟨S256x1, .f32⟩
  | 106 => ⟨S_, .f32⟩
  | 107 => ⟨S256x1, .f32⟩
  | 108 => ⟨S256x1, .f32⟩
  | 109 => ⟨S256x1x1, .f32⟩
  | 110 => ⟨S1x2048x512, .f32⟩
  | 111 => ⟨S256x2048x512, .f32⟩
  | 112 => ⟨S256x2048x512, .f32⟩
  | 113 => ⟨S256x2048x512, .f32⟩
  | 114 => ⟨S256x2048x512, .f32⟩
  | 115 => ⟨S_, .f32⟩
  | 116 => ⟨S_, .f32⟩
  | 117 => ⟨S_, .f32⟩
  | 118 => ⟨S256x2048, .f32⟩
  | 119 => ⟨S256x2048, .f32⟩
  | 120 => ⟨S_, .f32⟩
  | 121 => ⟨S256x2048, .f32⟩
  | 122 => ⟨S256x2048, .f32⟩
  | 123 => ⟨S_, .f32⟩
  | 124 => ⟨S_, .f32⟩
  | 125 => ⟨S256x1, .f32⟩
  | 126 => ⟨S256x1, .f32⟩
  | 127 => ⟨S1x2048, .f32⟩
  | _ => ⟨S2048x512, .f32⟩

abbrev hbmTy0_1 (i : Nat) : BufTy := match i % 128 with
  | 0 => ⟨S256x2048, .f32⟩
  | 1 => ⟨S256x2048, .f32⟩
  | 2 => ⟨S256x2048, .f32⟩
  | 3 => ⟨S256x2048, .f32⟩
  | 4 => ⟨S256x2048x1, .f32⟩
  | 5 => ⟨S_, .f32⟩
  | 6 => ⟨S256x2048x1, .f32⟩
  | 7 => ⟨S256x2048x1, .f32⟩
  | 8 => ⟨S256x2048x512, .f32⟩
  | 9 => ⟨S256x2048x512, .f32⟩
  | 10 => ⟨S_, .f32⟩
  | 11 => ⟨S_, .f32⟩
  | 12 => ⟨S_, .f32⟩
  | 13 => ⟨S_, .f32⟩
  | 14 => ⟨S256x1x512, .f32⟩
  | 15 => ⟨S256x2048x512, .f32⟩
  | 16 => ⟨S256x2048x512, .f32⟩
  | 17 => ⟨S_, .f32⟩
  | 18 => ⟨S256x2048, .f32⟩
  | 19 => ⟨S256x2048, .f32⟩
  | 20 => ⟨S256x2048, .f32⟩
  | 21 => ⟨S256x512, .f32⟩
  | 22 => ⟨S_, .f32⟩
  | 23 => ⟨S256, .f32⟩
  | 24 => ⟨S256x1, .f32⟩
  | 25 => ⟨S256x1, .f32⟩
  | 26 => ⟨S_, .f32⟩
  | 27 => ⟨S256x1, .f32⟩
  | 28 => ⟨S256x1, .f32⟩
  | 29 => ⟨S256x2048x512, .f32⟩
  | 30 => ⟨S_, .f32⟩
  | 31 => ⟨S256x2048, .f32⟩
  | 32 => ⟨S_, .f32⟩
  | 33 => ⟨S256x2048, .f32⟩
  | 34 => ⟨S256x2048, .f32⟩
  | 35 => ⟨S_, .f32⟩
  | 36 => ⟨S256x2048, .f32⟩
  | 37 => ⟨S256x2048, .f32⟩
  | 38 => ⟨S256x2048, .f32⟩
  | 39 => ⟨S256x2048, .f32⟩
  | 40 => ⟨S256x1, .f32⟩
  | 41 => ⟨S256x2048, .f32⟩
  | 42 => ⟨S256x2048, .f32⟩
  | 43 => ⟨S_, .f32⟩
  | 44 => ⟨S256x2048, .f32⟩
  | 45 => ⟨S256x2048, .f32⟩
  | 46 => ⟨S256x2048, .f32⟩
  | 47 => ⟨S256x2048, .f32⟩
  | 48 => ⟨S_, .f32⟩
  | 49 => ⟨S256x2048, .f32⟩
  | 50 => ⟨S256x2048, .f32⟩
  | 51 => ⟨S256x2048, .f32⟩
  | 52 => ⟨S256x2048, .f32⟩
  | 53 => ⟨S256x2048, .f32⟩
  | 54 => ⟨S2048x256, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_4 : Ref sig .tc := ⟨.hbm, 32, rfl⟩
abbrev main_v15 : Ref sig .tc := ⟨.hbm, 33, rfl⟩
abbrev main_v16 : Ref sig .tc := ⟨.hbm, 34, rfl⟩
abbrev main_cst_5 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_cst_8 : Ref sig .tc := ⟨.hbm, 46, rfl⟩
abbrev main_cst_9 : Ref sig .tc := ⟨.hbm, 47, rfl⟩
abbrev main_v25 : Ref sig .tc := ⟨.hbm, 48, rfl⟩
abbrev main_cst_10 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_11 : Ref sig .tc := ⟨.hbm, 53, rfl⟩
abbrev main_v29 : Ref sig .tc := ⟨.hbm, 54, rfl⟩
abbrev main_v30 : Ref sig .tc := ⟨.hbm, 55, rfl⟩
abbrev main_cst_12 : Ref sig .tc := ⟨.hbm, 56, rfl⟩
abbrev main_v31 : Ref sig .tc := ⟨.hbm, 57, rfl⟩
abbrev main_v32 : Ref sig .tc := ⟨.hbm, 58, rfl⟩
abbrev main_cst_13 : Ref sig .tc := ⟨.hbm, 59, rfl⟩
abbrev main_v33 : Ref sig .tc := ⟨.hbm, 60, rfl⟩
abbrev main_v34 : Ref sig .tc := ⟨.hbm, 61, rfl⟩
abbrev main_call2_v0 : Ref sig .tc := ⟨.hbm, 62, rfl⟩
abbrev main_call2_cst : Ref sig .tc := ⟨.hbm, 63, rfl⟩
abbrev main_call2_v1 : Ref sig .tc := ⟨.hbm, 64, rfl⟩
abbrev main_v35 : Ref sig .tc := ⟨.hbm, 65, rfl⟩
abbrev main_cst_14 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_15 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_16 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_17 : Ref sig .tc := ⟨.hbm, 81, rfl⟩
abbrev main_v48 : Ref sig .tc := ⟨.hbm, 82, rfl⟩
abbrev main_v49 : Ref sig .tc := ⟨.hbm, 83, rfl⟩
abbrev main_cst_18 : Ref sig .tc := ⟨.hbm, 84, rfl⟩
abbrev main_cst_19 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_20 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_21 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_22 : Ref sig .tc := ⟨.hbm, 103, rfl⟩
abbrev main_v65 : Ref sig .tc := ⟨.hbm, 104, rfl⟩
abbrev main_v66 : Ref sig .tc := ⟨.hbm, 105, rfl⟩
abbrev main_cst_23 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_24 : Ref sig .tc := ⟨.hbm, 115, rfl⟩
abbrev main_cst_25 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_26 : Ref sig .tc := ⟨.hbm, 120, rfl⟩
abbrev main_v78 : Ref sig .tc := ⟨.hbm, 121, rfl⟩
abbrev main_v79 : Ref sig .tc := ⟨.hbm, 122, rfl⟩
abbrev main_cst_27 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_28 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_cst_29 : Ref sig .tc := ⟨.hbm, 138, rfl⟩
abbrev main_v93 : Ref sig .tc := ⟨.hbm, 139, rfl⟩
abbrev main_cst_30 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_cst_31 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_call3_v0 : Ref sig .tc := ⟨.hbm, 149, rfl⟩
abbrev main_call3_cst : Ref sig .tc := ⟨.hbm, 150, rfl⟩
abbrev main_call3_v1 : Ref sig .tc := ⟨.hbm, 151, rfl⟩
abbrev main_call3_v2 : Ref sig .tc := ⟨.hbm, 152, rfl⟩
abbrev main_v101 : Ref sig .tc := ⟨.hbm, 153, rfl⟩
abbrev main_cst_32 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_cst_33 : Ref sig .tc := ⟨.hbm, 158, rfl⟩
abbrev main_v105 : Ref sig .tc := ⟨.hbm, 159, rfl⟩
abbrev main_cst_34 : Ref sig .tc := ⟨.hbm, 160, rfl⟩
abbrev main_v106 : Ref sig .tc := ⟨.hbm, 161, rfl⟩
abbrev main_v107 : Ref sig .tc := ⟨.hbm, 162, rfl⟩
abbrev main_cst_35 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_cst_36 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_cst_37 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩

abbrev nD : Nat := 1
abbrev τ : Topo := Topo.v7x

variable {F : FTy → Type} [FloatOps F]

class Facts₀ : Prop where
  reducesTo_S256x512_S256_d1 : S256x512.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x512_0_1 : S256x1.BroadcastsInDim S256x512 (![0, 1] : Fin 2 → Fin S256x512.rank)
  bcast_S_S256 : S_.BroadcastsInDim S256 (![] : Fin 0 → Fin S256.rank)
  reducesTo_S2048x512_S2048_d1 : S2048x512.ReducesTo [1] S2048
  bcast_S2048_S2048x1_0 : S2048.BroadcastsInDim S2048x1 (![0] : Fin 1 → Fin S2048x1.rank)
  bcast_S_S256x2048 : S_.BroadcastsInDim S256x2048 (![] : Fin 0 → Fin S256x2048.rank)
  transposes_S2048x1_S1x2048_1_0 : S2048x1.Transposes [1, 0] S1x2048
  bcast_S_S1x2048 : S_.BroadcastsInDim S1x2048 (![] : Fin 0 → Fin S1x2048.rank)
  bcast_S1x2048_S256x2048_0_1 : S1x2048.BroadcastsInDim S256x2048 (![0, 1] : Fin 2 → Fin S256x2048.rank)
  bcast_S256x2048_S256x2048x1_0_1 : S256x2048.BroadcastsInDim S256x2048x1 (![0, 1] : Fin 2 → Fin S256x2048x1.rank)
  bcast_S256x512_S256x1x512_0_2 : S256x512.BroadcastsInDim S256x1x512 (![0, 2] : Fin 2 → Fin S256x1x512.rank)
  bcast_S256x2048x1_S256x2048x512_0_1_2 : S256x2048x1.BroadcastsInDim S256x2048x512 (![0, 1, 2] : Fin 3 → Fin S256x2048x512.rank)
  bcast_S256x1x512_S256x2048x512_0_1_2 : S256x1x512.BroadcastsInDim S256x2048x512 (![0, 1, 2] : Fin 3 → Fin S256x2048x512.rank)
  bcast_S256x1_S256x1x1_0_1 : S256x1.BroadcastsInDim S256x1x1 (![0, 1] : Fin 2 → Fin S256x1x1.rank)
  bcast_S2048x512_S1x2048x512_1_2 : S2048x512.BroadcastsInDim S1x2048x512 (![1, 2] : Fin 2 → Fin S1x2048x512.rank)
  bcast_S256x1x1_S256x2048x512_0_1_2 : S256x1x1.BroadcastsInDim S256x2048x512 (![0, 1, 2] : Fin 3 → Fin S256x2048x512.rank)
  bcast_S1x2048x512_S256x2048x512_0_1_2 : S1x2048x512.BroadcastsInDim S256x2048x512 (![0, 1, 2] : Fin 3 → Fin S256x2048x512.rank)
  bcast_S256x1_S256x2048_0_1 : S256x1.BroadcastsInDim S256x2048 (![0, 1] : Fin 2 → Fin S256x2048.rank)
  bcast_S_S256x2048x1 : S_.BroadcastsInDim S256x2048x1 (![] : Fin 0 → Fin S256x2048x1.rank)
  reducesTo_S256x2048x512_S256x2048_d2 : S256x2048x512.ReducesTo [2] S256x2048
  transposes_S256x2048_S2048x256_1_0 : S256x2048.Transposes [1, 0] S2048x256
  dot_S256x512_S2048x512_S256x2048_1_1_0_0_n_n_wf : DotDims.WF S256x512 S2048x512 S256x2048 [1] [1] [0] [0] [] []

variable [Facts₀]

def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf

class Facts : Prop extends Facts₀ where

variable [Facts]
-- ==== Proof.KernelRun.lean ====
/-
  The idealized kernel's run with its result named. The program is two pipelined regions one after the other; the
  contents of every buffer the TensorCore can see at the three boundaries (launch, between the regions, return) are the
  generated fold `W0`, `W1`, `W2`. The run's last thread state holds every such buffer at `W2`, so the final memory
  has the result array `main_v1` at `W2` of it, beside the three argument arrays as launched: the same launch over the
  same two segments as the frame, read at one more buffer.
-/
import proofs.«110573_j34213709480136_1_alg».proof.Proof.Gen.KernelIdeal.Frame

set_option maxRecDepth 16384

noncomputable section

namespace Cert.Hyp.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates without a fault, with the result array at the last
    boundary's contents of it and the arguments as launched. -/
theorem run_result : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.Hyp.KernelRun

end
-- ==== Proof.KernelArrays0.lean ====
/-
  Region 0 has one grid point and every window's block is its whole array (block index (0, 0)). So the
  input blocks are the arrays p and a themselves, what the point writes back to an output window is the
  body's value for that window computed from the whole arrays, and the one block covers the output array:
  after the region the three output arrays hold the points P, the rescaled normals A and the table of the
  four numbers per row, as functions of p and a.
-/
import proofs.«110573_j34213709480136_1_alg».proof.Proof.Gen.KernelIdeal.Frame
import proofs.«110573_j34213709480136_1_alg».proof.Proof.Gen.KernelIdeal.Points
import Idealize.ShloMosaic.Lib.Pipeline.Value

noncomputable section

namespace Cert.Hyp.Arrays

open Cert.KernelIdeal Cert.KernelIdeal.Gen Idealize.ShloMosaic Idealize.ShloMosaic.TcCoe Idealize.SL.Sem
open Idealize.ShloMosaic.Pipeline (Dat)

variable {F : FTy → Type} [FloatOps F] [Named F]
variable (V : (c : Dev nD) → (b : Ref sig .tc) → Buf (Elt F) ((c : Thread nD τ).loc b))

theorem offsets_zero : (![0, 0] : Fin 2 → Nat) = fun _ => 0 := funext fun a => by fin_cases a <;> rfl

/-- The printed index maps of region 0, decided over its one grid point: every window's block index is (0, 0). -/
theorem block_index0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Input window 0's block at the one point is the whole array p. -/
theorem iblk0_0_eq (c : Dev nD) (t : Fin cfg0.N) :
    (iblk0 V c 0 t : Vec F S256x512 .f32) = (V c main_arg2 : Vec F S256x512 .f32) := by
  obtain ⟨e0, e1, -⟩ := block_index0 t
  funext j
  show V c main_arg2 (((cfg0.win 0).blk t).view.emb j) = V c main_arg2 j
  congr 1
  funext a; apply Fin.ext
  match a with
  | ⟨0, _⟩ => show win0_0.index t (0 : Fin 2) * 256 + 1 * (j 0).val = (j 0).val; omega
  | ⟨1, _⟩ => show win0_0.index t (1 : Fin 2) * 512 + 1 * (j 1).val = (j 1).val; omega

/-- Input window 1's block at the one point is the whole array a. -/
theorem iblk0_1_eq (c : Dev nD) (t : Fin cfg0.N) :
    (iblk0 V c 1 t : Vec F S256x512 .f32) = (V c main_arg1 : Vec F S256x512 .f32) := by
  obtain ⟨-, -, e0, e1, -⟩ := block_index0 t
  funext j
  show V c main_arg1 (((cfg0.win 1).blk t).view.emb j) = V c main_arg1 j
  congr 1
  funext a; apply Fin.ext
  match a with
  | ⟨0, _⟩ => show win0_1.index t (0 : Fin 2) * 256 + 1 * (j 0).val = (j 0).val; omega
  | ⟨1, _⟩ => show win0_1.index t (1 : Fin 2) * 512 + 1 * (j 1).val = (j 1).val; omega

/-- What the one point writes back to output window 2 is the block (0, 0), the whole, of the points P. -/
theorem flushed0_2_eq (c : Dev nD) (t : Fin cfg0.N) :
    (dat0 V c).flushed 2 t
      = ((cfg0.win 2).blk t).view.read (Elt F) (k0_pay2 (V c main_arg2 : Vec F S256x512 .f32)) := by
  show (cfg0.win 2).cut (grid0.coords t) ((dat0 V c).after 2 t) = _
  rw [after0_2]
  unfold out0_2
  rw [View.canon_unit_zero offsets_zero]
  simp only [View.ld_unit_zero (S := S256x512) offsets_zero]
  rw [iblk0_0_eq]
  obtain ⟨-, -, -, -, e0, e1, -⟩ := block_index0 t
  funext j
  show k0_pay2 (V c main_arg2 : Vec F S256x512 .f32) j
      = k0_pay2 (V c main_arg2 : Vec F S256x512 .f32) (((cfg0.win 2).blk t).view.emb j)
  congr 1
  funext a; apply Fin.ext
  match a with
  | ⟨0, _⟩ => show (j 0).val = win0_2.index t (0 : Fin 2) * 256 + 1 * (j 0).val; omega
  | ⟨1, _⟩ => show (j 1).val = win0_2.index t (1 : Fin 2) * 512 + 1 * (j 1).val; omega

/-- An index of the array is in the point's block of window 2 iff each coordinate is in the block's range. -/
theorem mem_blk0_2 (t : Fin cfg0.N) (i : S256x512.Idx) :
    i ∈ ((cfg0.win 2).blk t).view.set ↔ ∀ a : Fin 2, win0_2.index t a * S256x512.size a ≤ (i a).val
      ∧ (i a).val < win0_2.index t a * S256x512.size a + S256x512.size a := by
  show i ∈ ((View.whole main_v0_0).slice (win0_2.rect t)).set ↔ _
  rw [View.set_slice_whole, Rect.mem_set_unit]
  exact Iff.rfl

/-- The one point's block covers the array. -/
theorem cover0_2_all (i : S256x512.Idx) :
    ∃ t : Fin cfg0.N, (cfg0.win 2).flush t = true ∧ i ∈ ((cfg0.win 2).blk t).view.set := by
  refine ⟨t0_0, flush0_2 t0_0, ?_⟩
  obtain ⟨-, -, -, -, e0, e1, -⟩ := block_index0 t0_0
  rw [mem_blk0_2]
  intro a
  have h0 : (i 0).val < 256 := (i 0).isLt
  have h1 : (i 1).val < 512 := (i 1).isLt
  match a with
  | ⟨0, _⟩ => show win0_2.index t0_0 (0 : Fin 2) * 256 ≤ (i 0).val ∧ (i 0).val < win0_2.index t0_0 (0 : Fin 2) * 256 + 256; omega
  | ⟨1, _⟩ => show win0_2.index t0_0 (1 : Fin 2) * 512 ≤ (i 1).val ∧ (i 1).val < win0_2.index t0_0 (1 : Fin 2) * 512 + 512; omega

/-- After region 0 the array of window 2 holds the points P of the rows of p. -/
theorem region0_points (c : Dev nD) :
    (dat0 V c).arrAt 2 cfg0.N = k0_pay2 (V c main_arg2 : Vec F S256x512 .f32) :=
  (dat0 V c).arrAt_eq_of_cover 2 (k0_pay2 (V c main_arg2 : Vec F S256x512 .f32))
    (fun t _ => flushed0_2_eq V c t) cover0_2_all

/-! ## Output window 3: the rescaled normals -/

theorem flushed0_3_eq (c : Dev nD) (t : Fin cfg0.N) :
    (dat0 V c).flushed 3 t
      = ((cfg0.win 3).blk t).view.read (Elt F)
          (k0_pay4 (V c main_arg2 : Vec F S256x512 .f32) (V c main_arg1 : Vec F S256x512 .f32)) := by
  show (cfg0.win 3).cut (grid0.coords t) ((dat0 V c).after 3 t) = _
  rw [after0_3]
  unfold out0_3
  rw [View.canon_unit_zero offsets_zero]
  simp only [View.ld_unit_zero (S := S256x512) offsets_zero]
  rw [iblk0_0_eq, iblk0_1_eq]
  obtain ⟨-, -, -, -, -, -, e0, e1, -⟩ := block_index0 t
  funext j
  show k0_pay4 (V c main_arg2 : Vec F S256x512 .f32) (V c main_arg1 : Vec F S256x512 .f32) j
      = k0_pay4 (V c main_arg2 : Vec F S256x512 .f32) (V c main_arg1 : Vec F S256x512 .f32)
          (((cfg0.win 3).blk t).view.emb j)
  congr 1
  funext a; apply Fin.ext
  match a with
  | ⟨0, _⟩ => show (j 0).val = win0_3.index t (0 : Fin 2) * 256 + 1 * (j 0).val; omega
  | ⟨1, _⟩ => show (j 1).val = win0_3.index t (1 : Fin 2) * 512 + 1 * (j 1).val; omega

theorem mem_blk0_3 (t : Fin cfg0.N) (i : S256x512.Idx) :
    i ∈ ((cfg0.win 3).blk t).view.set ↔ ∀ a : Fin 2, win0_3.index t a * S256x512.size a ≤ (i a).val
      ∧ (i a).val < win0_3.index t a * S256x512.size a + S256x512.size a := by
  show i ∈ ((View.whole main_v0_1).slice (win0_3.rect t)).set ↔ _
  rw [View.set_slice_whole, Rect.mem_set_unit]
  exact Iff.rfl

theorem cover0_3_all (i : S256x512.Idx) :
    ∃ t : Fin cfg0.N, (cfg0.win 3).flush t = true ∧ i ∈ ((cfg0.win 3).blk t).view.set := by
  refine ⟨t0_0, flush0_3 t0_0, ?_⟩
  obtain ⟨-, -, -, -, -, -, e0, e1, -⟩ := block_index0 t0_0
  rw [mem_blk0_3]
  intro a
  have h0 : (i 0).val < 256 := (i 0).isLt
  have h1 : (i 1).val < 512 := (i 1).isLt
  match a with
  | ⟨0, _⟩ => show win0_3.index t0_0 (0 : Fin 2) * 256 ≤ (i 0).val ∧ (i 0).val < win0_3.index t0_0 (0 : Fin 2) * 256 + 256; omega
  | ⟨1, _⟩ => show win0_3.index t0_0 (1 : Fin 2) * 512 ≤ (i 1).val ∧ (i 1).val < win0_3.index t0_0 (1 : Fin 2) * 512 + 512; omega

/-- After region 0 the array of window 3 holds the rescaled normals A of the rows of a and p. -/
theorem region0_normals (c : Dev nD) :
    (dat0 V c).arrAt 3 cfg0.N
      = k0_pay4 (V c main_arg2 : Vec F S256x512 .f32) (V c main_arg1 : Vec F S256x512 .f32) :=
  (dat0 V c).arrAt_eq_of_cover 3
    (k0_pay4 (V c main_arg2 : Vec F S256x512 .f32) (V c main_arg1 : Vec F S256x512 .f32))
    (fun t _ => flushed0_3_eq V c t) cover0_3_all

/-! ## Output window 4: the table of the four numbers per row -/

theorem flushed0_4_eq (c : Dev nD) (t : Fin cfg0.N) :
    (dat0 V c).flushed 4 t
      = ((cfg0.win 4).blk t).view.read (Elt F)
          (k0_pay1 (k0_pay3 (V c main_arg2 : Vec F S256x512 .f32))
            (k0_pay5 (V c main_arg2 : Vec F S256x512 .f32) (V c main_arg1 : Vec F S256x512 .f32))
            (k0_pay6 (V c main_arg2 : Vec F S256x512 .f32) (V c main_arg1 : Vec F S256x512 .f32))
            (k0_pay7 (V c main_arg2 : Vec F S256x512 .f32)) (Scalar.ofBits .f32 0x40000000#32)) := by
  show (cfg0.win 4).cut (grid0.coords t) ((dat0 V c).after 4 t) = _
  rw [after0_4]
  unfold out0_4
  rw [View.canon_unit_zero offsets_zero]
  simp only [View.ld_unit_zero (S := S256x512) offsets_zero]
  rw [iblk0_0_eq, iblk0_1_eq]
  obtain ⟨-, -, -, -, -, -, -, -, e0, e1⟩ := block_index0 t
  funext j
  show k0_pay1 (k0_pay3 (V c main_arg2 : Vec F S256x512 .f32))
        (k0_pay5 (V c main_arg2 : Vec F S256x512 .f32) (V c main_arg1 : Vec F S256x512 .f32))
        (k0_pay6 (V c main_arg2 : Vec F S256x512 .f32) (V c main_arg1 : Vec F S256x512 .f32))
        (k0_pay7 (V c main_arg2 : Vec F S256x512 .f32)) (Scalar.ofBits .f32 0x40000000#32) j
      = k0_pay1 (k0_pay3 (V c main_arg2 : Vec F S256x512 .f32))
        (k0_pay5 (V c main_arg2 : Vec F S256x512 .f32) (V c main_arg1 : Vec F S256x512 .f32))
        (k0_pay6 (V c main_arg2 : Vec F S256x512 .f32) (V c main_arg1 : Vec F S256x512 .f32))
        (k0_pay7 (V c main_arg2 : Vec F S256x512 .f32)) (Scalar.ofBits .f32 0x40000000#32)
          (((cfg0.win 4).blk t).view.emb j)
  congr 1
  funext a; apply Fin.ext
  match a with
  | ⟨0, _⟩ => show (j 0).val = win0_4.index t (0 : Fin 2) * 4 + 1 * (j 0).val; omega
  | ⟨1, _⟩ => show (j 1).val = win0_4.index t (1 : Fin 2) * 256 + 1 * (j 1).val; omega

theorem mem_blk0_4 (t : Fin cfg0.N) (i : S4x256.Idx) :
    i ∈ ((cfg0.win 4).blk t).view.set ↔ ∀ a : Fin 2, win0_4.index t a * S4x256.size a ≤ (i a).val
      ∧ (i a).val < win0_4.index t a * S4x256.size a + S4x256.size a := by
  show i ∈ ((View.whole main_v0_2).slice (win0_4.rect t)).set ↔ _
  rw [View.set_slice_whole, Rect.mem_set_unit]
  exact Iff.rfl

theorem cover0_4_all (i : S4x256.Idx) :
    ∃ t : Fin cfg0.N, (cfg0.win 4).flush t = true ∧ i ∈ ((cfg0.win 4).blk t).view.set := by
  refine ⟨t0_0, flush0_4 t0_0, ?_⟩
  obtain ⟨-, -, -, -, -, -, -, -, e0, e1⟩ := block_index0 t0_0
  rw [mem_blk0_4]
  intro a
  have h0 : (i 0).val < 4 := (i 0).isLt
  have h1 : (i 1).val < 256 := (i 1).isLt
  match a with
  | ⟨0, _⟩ => show win0_4.index t0_0 (0 : Fin 2) * 4 ≤ (i 0).val ∧ (i 0).val < win0_4.index t0_0 (0 : Fin 2) * 4 + 4; omega
  | ⟨1, _⟩ => show win0_4.index t0_0 (1 : Fin 2) * 256 ≤ (i 1).val ∧ (i 1).val < win0_4.index t0_0 (1 : Fin 2) * 256 + 256; omega

/-- After region 0 the array of window 4 holds the table: per row k its ‖P‖², ⟨P, A⟩, ‖A‖-term and factor. -/
theorem region0_table (c : Dev nD) :
    (dat0 V c).arrAt 4 cfg0.N
      = k0_pay1 (k0_pay3 (V c main_arg2 : Vec F S256x512 .f32))
          (k0_pay5 (V c main_arg2 : Vec F S256x512 .f32) (V c main_arg1 : Vec F S256x512 .f32))
          (k0_pay6 (V c main_arg2 : Vec F S256x512 .f32) (V c main_arg1 : Vec F S256x512 .f32))
          (k0_pay7 (V c main_arg2 : Vec F S256x512 .f32)) (Scalar.ofBits .f32 0x40000000#32) :=
  (dat0 V c).arrAt_eq_of_cover 4 _ (fun t _ => flushed0_4_eq V c t) cover0_4_all

end Cert.Hyp.Arrays

end
-- ==== Proof.Spec.lean ====
/-
  The two programs' arithmetic for one logit, as scalar functions on the extended reals.

  The logit at (n, k) depends on three rows only: row n of x and row k of a and of p, each of length 512.
  With u = max(‖p‖, ε₅) and P = tanh(clip(u, -15, 15)) · p / u (the point of the ball p is mapped to),
  A = a · (1 - ‖P‖²), and for a row x:  xp = ⟨x, P⟩, xa = ⟨x, A⟩, y2 = ‖x‖², p2 = ‖P‖², pa = ⟨P, A⟩,
  the Möbius sum  M = (α · (-P) + β · x) / D  with  α = 1 - 2 xp + y2,  β = 1 - p2,  D = 1 - 2 xp + p2 · y2 + ε₅
  enters the logit only through  ⟨M, A⟩  and  ‖M‖².  The kernel computes those two from the five inner products
  (`logitK`); the reference forms the vector M and sums over its 512 coordinates (`logitR`).
-/
import Idealize.ShloMosaic.PureOps.Ideal

noncomputable section

namespace Cert.Hyp

open Idealize.ShloMosaic

/-- A row of 512 extended reals. -/
abbrev Row := Fin 512 → EReal

abbrev one : EReal := ((1 : ℝ) : EReal)
abbrev two : EReal := ((2 : ℝ) : EReal)
abbrev half : EReal := ((1 / 2 : ℝ) : EReal)
abbrev hi : EReal := ((15 : ℝ) : EReal)
abbrev lo : EReal := ((-15 : ℝ) : EReal)
/-- The literal 1e-5 as the binary fraction its f32 word denotes. -/
def eps5 : EReal := Ideal.ofBits .f32 0x3727C5AC#32
/-- The literal 1e-7 as the binary fraction its f32 word denotes. -/
def eps7 : EReal := Ideal.ofBits .f32 0x33D6BF95#32
/-- The literal 1e-4 as the binary fraction its f32 word denotes, 13743895 / 2^37. -/
def dlit : EReal := Ideal.ofBits .f32 0x38D1B717#32
/-- One minus that fraction: the clamp of ‖P‖² on the kernel's side. -/
abbrev clamp : EReal := ((137425209577 / 137438953472 : ℝ) : EReal)

/-- The squared norm of a row. -/
def sq (f : Row) : EReal := ∑ d : Fin 512, f d * f d
/-- The inner product of two rows. -/
def dot (f g : Row) : EReal := ∑ d : Fin 512, f d * g d

/-! ## The kernel's side -/

/-- max(‖p‖, ε₅). -/
def unorm (p : Row) : EReal := max (Ideal.sqrt (sq p)) eps5
/-- tanh of the clipped norm. -/
def th (p : Row) : EReal := Ideal.tanh (min hi (max lo (unorm p)))
/-- The point of the ball: tanh(u) · p / u. -/
def pp (p : Row) : Row := fun d => Ideal.div (th p * p d) (unorm p)
/-- The conformal factor 1 - ‖P‖². -/
def conf (p : Row) : EReal := one - one * sq (pp p)
/-- The rescaled normal a · (1 - ‖P‖²). -/
def ap (a p : Row) : Row := fun d => a d * conf p
/-- max(‖A‖, ε₇). -/
def anorm (a p : Row) : EReal := max (Ideal.sqrt (sq (ap a p))) eps7
/-- 2 / (1 - min(‖P‖², clamp)) · max(‖A‖, ε₇). -/
def kval (a p : Row) : EReal := Ideal.div two (one - one * min (sq (pp p)) clamp) * anorm a p

/-- The logit from a row x, the point P, the normal A and the four per-k numbers, as the kernel's second body
    computes it from the inner products ⟨x,P⟩, ⟨x,A⟩ and ‖x‖². -/
def logitK (x P A : Row) (p2r pa an kv : EReal) : EReal :=
  let xp := dot x P
  let xa := dot x A
  let y2 := sq x
  let c1 := (one - two * xp) + one * y2
  let c2 := one - one * p2r
  let numm := c1 * (0 - pa) + c2 * xa
  let den := ((one - two * xp) + (one * p2r) * y2) + eps5
  let raw := ((c1 * c1) * p2r - ((two * c1) * c2) * xp) + (c2 * c2) * y2
  let mob2 := Ideal.div raw (den * den)
  let numf := Ideal.div (two * numm) den
  let denf := an * (one - one * mob2)
  let ratio := Ideal.div numf denf
  kv * Ideal.log (max (ratio + Ideal.sqrt (one + ratio * ratio)) eps5)

/-- The kernel's logit at (n, k) from row n of x and row k of a and p. -/
def kernelLogit (x a p : Row) : EReal :=
  logitK x (pp p) (ap a p) (sq (pp p)) (dot (pp p) (ap a p)) (anorm a p) (kval a p)

/-! ## The reference's side -/

/-- √c as the reference computes it, 1 ^ (1/2). -/
def sqrtC : EReal := Ideal.pow one half
def unormR (p : Row) : EReal := max (Ideal.sqrt (sq p)) eps5
def thR (p : Row) : EReal := Ideal.tanh (min hi (max lo (sqrtC * unormR p)))
def ppR (p : Row) : Row := fun d => Ideal.div (thR p * p d) (sqrtC * unormR p)
def apR (a p : Row) : Row := fun d => a d * (one - one * sq (ppR p))
def anormR (a p : Row) : EReal := max (Ideal.sqrt (sq (apR a p))) eps7
def kvalR (a p : Row) : EReal :=
  Ideal.div (Ideal.div two (one - one * min (sq (ppR p)) (Ideal.div one one - dlit)) * anormR a p) (Ideal.sqrt one)

/-- The logit from a row x, the point P, the normal A and the two per-k numbers, as the reference computes it:
    the Möbius sum of -P and x coordinate by coordinate, then its inner product with A and its squared norm. -/
def logitR (x P A : Row) (an kv : EReal) : EReal :=
  let xy := ∑ d : Fin 512, (-(P d)) * x d
  let x2 := ∑ d : Fin 512, (-(P d)) * (-(P d))
  let y2 := sq x
  let al := (one + (two * one) * xy) + one * y2
  let be := one - one * x2
  let dn := ((one + (two * one) * xy) + ((one * one) * x2) * y2) + eps5
  let mob : Row := fun d => Ideal.div (al * (-(P d)) + be * x d) dn
  let num := (two * Ideal.sqrt one) * ∑ d : Fin 512, mob d * A d
  let den := an * (one - one * ∑ d : Fin 512, mob d * mob d)
  let ratio := Ideal.div num den
  kv * Ideal.log (max (ratio + Ideal.sqrt (one + ratio * ratio)) eps5)

/-- The reference's logit at (n, k) from row n of x and row k of a and p. -/
def refLogit (x a p : Row) : EReal :=
  logitR x (ppR p) (apR a p) (anormR a p) (kvalR a p)

end Cert.Hyp

end
-- ==== Proof.KernelArrays1.lean ====
/-
  Region 1 has four grid points. At point t the window of x is rows 512·t … 512·t + 511 and the window of the
  result is the same rows of the result; the three per-row arrays (the points P, the normals A, the table) are
  whole at every point. Given that the body's value at (r, k) of a block is the logit of row r of the x block
  and row k of the per-row arrays, what point t writes back is block t of ONE function of the result's index,
  the logit of row n of x and row k of the per-row arrays at (n, k); row n lies in the block of point n / 512,
  so the four blocks cover the result and after the region the result array is that function.
-/
import proofs.«110573_j34213709480136_1_alg».proof.Proof.Gen.KernelIdeal.Frame
import proofs.«110573_j34213709480136_1_alg».proof.Proof.Gen.KernelIdeal.Points
import proofs.«110573_j34213709480136_1_alg».proof.Proof.Spec
import Idealize.ShloMosaic.Lib.Pipeline.Value
import Idealize.ShloMosaic.Lib.ValueIdx

noncomputable section

namespace Cert.Hyp.Arrays

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem offsets_zero1 : (![0, 0] : Fin 2 → Nat) = fun _ => 0 := funext fun a => by fin_cases a <;> rfl

/-- The logit at row n of x and row k of the three per-row arrays. -/
abbrev logitAt (X : Vec Ideal S2048x512 .f32) (P' A' : Vec Ideal S256x512 .f32) (T : Vec Ideal S4x256 .f32)
    (n : Fin 2048) (k : Fin 256) : EReal :=
  Cert.Hyp.logitK (fun d => X (ix2 n d)) (fun d => P' (ix2 k d)) (fun d => A' (ix2 k d))
    (T (ix2 (0 : Fin 4) k)) (T (ix2 (1 : Fin 4) k)) (T (ix2 (2 : Fin 4) k)) (T (ix2 (3 : Fin 4) k))

/-- The logits as one function of the index of the result array. -/
abbrev logits (X : Vec Ideal S2048x512 .f32) (P' A' : Vec Ideal S256x512 .f32) (T : Vec Ideal S4x256 .f32) :
    S2048x256.Idx → EReal :=
  fun i => logitAt X P' A' T (i 0) (i 1)

/-- The logits at an index with coordinates n and k. -/
theorem logits_apply (X : Vec Ideal S2048x512 .f32) (P' A' : Vec Ideal S256x512 .f32) (T : Vec Ideal S4x256 .f32)
    (i : S2048x256.Idx) (n : Fin 2048) (k : Fin 256) (h0 : (i 0).val = n.val) (h1 : (i 1).val = k.val) :
    logits X P' A' T i = logitAt X P' A' T n k := by
  have hi : i = ix2 n k := by
    funext a
    match a with
    | ⟨0, _⟩ => exact Fin.ext h0
    | ⟨1, _⟩ => exact Fin.ext h1
  subst hi
  rfl

/-- The printed index maps of region 1, decided over its four grid points: the blocks of x and of the result
    move with the point along the rows, the three per-row arrays are whole at every point. -/
theorem block_index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 ∧ t.val < 4 :=
  (by decide +kernel : ∀ t : Fin grid1.N, _)

/-- Row r of the block of x at point t is row 512·t + r of x. -/
theorem iblk1_0_apply (c : Dev nD) (t : Fin cfg1.N) (r d : Fin 512) (n : Fin 2048)
    (hn : n.val = 512 * t.val + r.val) :
    (iblk1 V c 0 t : Vec Ideal S512x512 .f32) (ix2 r d) = (V c main_arg0 : Vec Ideal S2048x512 .f32) (ix2 n d) := by
  obtain ⟨e0, e1, -⟩ := block_index1 t
  show V c main_arg0 (((cfg1.win 0).blk t).view.emb (ix2 r d)) = V c main_arg0 (ix2 n d)
  congr 1
  funext a; apply Fin.ext
  match a with
  | ⟨0, _⟩ => show win1_0.index t (0 : Fin 2) * 512 + 1 * r.val = n.val; omega
  | ⟨1, _⟩ => show win1_0.index t (1 : Fin 2) * 512 + 1 * d.val = d.val; omega

/-- The block of the points P at every point is the whole array. -/
theorem iblk1_1_eq (c : Dev nD) (t : Fin cfg1.N) :
    (iblk1 V c 1 t : Vec Ideal S256x512 .f32) = (V c main_v0_0 : Vec Ideal S256x512 .f32) := by
  obtain ⟨-, -, e0, e1, -⟩ := block_index1 t
  funext j
  show V c main_v0_0 (((cfg1.win 1).blk t).view.emb j) = V c main_v0_0 j
  congr 1
  funext a; apply Fin.ext
  match a with
  | ⟨0, _⟩ => show win1_1.index t (0 : Fin 2) * 256 + 1 * (j 0).val = (j 0).val; omega
  | ⟨1, _⟩ => show win1_1.index t (1 : Fin 2) * 512 + 1 * (j 1).val = (j 1).val; omega

/-- The block of the normals A at every point is the whole array. -/
theorem iblk1_2_eq (c : Dev nD) (t : Fin cfg1.N) :
    (iblk1 V c 2 t : Vec Ideal S256x512 .f32) = (V c main_v0_1 : Vec Ideal S256x512 .f32) := by
  obtain ⟨-, -, -, -, e0, e1, -⟩ := block_index1 t
  funext j
  show V c main_v0_1 (((cfg1.win 2).blk t).view.emb j) = V c main_v0_1 j
  congr 1
  funext a; apply Fin.ext
  match a with
  | ⟨0, _⟩ => show win1_2.index t (0 : Fin 2) * 256 + 1 * (j 0).val = (j 0).val; omega
  | ⟨1, _⟩ => show win1_2.index t (1 : Fin 2) * 512 + 1 * (j 1).val = (j 1).val; omega

/-- The block of the table at every point is the whole array. -/
theorem iblk1_3_eq (c : Dev nD) (t : Fin cfg1.N) :
    (iblk1 V c 3 t : Vec Ideal S4x256 .f32) = (V c main_v0_2 : Vec Ideal S4x256 .f32) := by
  obtain ⟨-, -, -, -, -, -, e0, e1, -⟩ := block_index1 t
  funext j
  show V c main_v0_2 (((cfg1.win 3).blk t).view.emb j) = V c main_v0_2 j
  congr 1
  funext a; apply Fin.ext
  match a with
  | ⟨0, _⟩ => show win1_3.index t (0 : Fin 2) * 4 + 1 * (j 0).val = (j 0).val; omega
  | ⟨1, _⟩ => show win1_3.index t (1 : Fin 2) * 256 + 1 * (j 1).val = (j 1).val; omega

/-- What point t writes back to the result's window is block t of the logits: row r of the block is row
    512·t + r of the result, computed from row 512·t + r of x. -/
theorem flushed1_4_eq
    (hpay : ∀ (x0 : Vec Ideal S512x512 .f32) (x1 x2 : Vec Ideal S256x512 .f32) (x3 : Vec Ideal S4x256 .f32)
        (r : Fin 512) (k : Fin 256),
      k1_pay12 (F := Ideal) (k1_pay2 x3) (k1_pay3 x3) (k1_pay4 x3) (k1_pay6 x0 x1) (k1_pay7 x0) (k1_pay8 x0 x1)
          (k1_pay9 x3) (k1_pay10 x0 x1 x2 x3) (k1_pay11 (F := Ideal)) (ValueIdx.ix2 r k)
        = Cert.Hyp.logitK (fun d => x0 (ValueIdx.ix2 r d)) (fun d => x1 (ValueIdx.ix2 k d))
            (fun d => x2 (ValueIdx.ix2 k d)) (x3 (ValueIdx.ix2 (0 : Fin 4) k)) (x3 (ValueIdx.ix2 (1 : Fin 4) k))
            (x3 (ValueIdx.ix2 (2 : Fin 4) k)) (x3 (ValueIdx.ix2 (3 : Fin 4) k)))
    (c : Dev nD) (t : Fin cfg1.N) :
    (dat1 V c).flushed 4 t = ((cfg1.win 4).blk t).view.read (Elt Ideal)
      (logits (V c main_arg0) (V c main_v0_0) (V c main_v0_1) (V c main_v0_2)) := by
  show (cfg1.win 4).cut (grid1.coords t) ((dat1 V c).after 4 t) = _
  rw [after1_4]
  unfold out1_4
  rw [View.canon_unit_zero offsets_zero1]
  simp only [View.ld_unit_zero (S := S512x512) offsets_zero1, View.ld_unit_zero (S := S256x512) offsets_zero1,
    View.ld_unit_zero (S := S4x256) offsets_zero1]
  rw [iblk1_1_eq, iblk1_2_eq, iblk1_3_eq]
  obtain ⟨-, -, -, -, -, -, -, -, f0, f1, ht⟩ := block_index1 t
  funext j
  obtain ⟨r, k, rfl⟩ : ∃ (r : Fin 512) (k : Fin 256), j = ix2 r k := ⟨j 0, j 1, eq_ix2 j⟩
  refine (hpay _ _ _ _ r k).trans ?_
  have hr : r.val < 512 := r.isLt
  have hx : (fun d : Fin 512 => (iblk1 V c 0 t : Vec Ideal S512x512 .f32) (ix2 r d))
      = fun d : Fin 512 => (V c main_arg0 : Vec Ideal S2048x512 .f32)
          (ix2 (⟨512 * t.val + r.val, by omega⟩ : Fin 2048) d) :=
    funext fun d => iblk1_0_apply V c t r d _ rfl
  rw [hx]
  refine (logits_apply _ _ _ _ (((cfg1.win 4).blk t).view.emb (ix2 r k))
    (⟨512 * t.val + r.val, by omega⟩ : Fin 2048) k ?_ ?_).symm
  · show win1_4.index t (0 : Fin 2) * 512 + 1 * r.val = 512 * t.val + r.val; omega
  · show win1_4.index t (1 : Fin 2) * 256 + 1 * k.val = k.val; omega

/-- An index of the result is in point t's block iff each coordinate is in the block's range on its axis. -/
theorem mem_blk1_4 (t : Fin cfg1.N) (i : S2048x256.Idx) :
    i ∈ ((cfg1.win 4).blk t).view.set ↔ ∀ a : Fin 2, win1_4.index t a * S512x256.size a ≤ (i a).val
      ∧ (i a).val < win1_4.index t a * S512x256.size a + S512x256.size a := by
  show i ∈ ((View.whole main_v1).slice (win1_4.rect t)).set ↔ _
  rw [View.set_slice_whole, Rect.mem_set_unit]
  exact Iff.rfl

/-- Row n of the result lies in the block of point n / 512. -/
theorem cover1_4_all (i : S2048x256.Idx) :
    ∃ t : Fin cfg1.N, (cfg1.win 4).flush t = true ∧ i ∈ ((cfg1.win 4).blk t).view.set := by
  have h0 : (i 0).val < 2048 := (i 0).isLt
  have h1 : (i 1).val < 256 := (i 1).isLt
  obtain ⟨t, ht⟩ : ∃ t : Fin cfg1.N, t.val = (i 0).val / 512 :=
    ⟨⟨(i 0).val / 512, by rw [show cfg1.N = 4 from N_1]; omega⟩, rfl⟩
  refine ⟨t, flush1_4 t, ?_⟩
  obtain ⟨-, -, -, -, -, -, -, -, f0, f1, -⟩ := block_index1 t
  rw [mem_blk1_4]
  intro a
  match a with
  | ⟨0, _⟩ => show win1_4.index t (0 : Fin 2) * 512 ≤ (i 0).val ∧ (i 0).val < win1_4.index t (0 : Fin 2) * 512 + 512; omega
  | ⟨1, _⟩ => show win1_4.index t (1 : Fin 2) * 256 ≤ (i 1).val ∧ (i 1).val < win1_4.index t (1 : Fin 2) * 256 + 256; omega

/-- After region 1 the result array holds, at (n, k), the logit of row n of x and row k of the three per-row
    arrays. -/
theorem region1_result
    (hpay : ∀ (x0 : Vec Ideal S512x512 .f32) (x1 x2 : Vec Ideal S256x512 .f32) (x3 : Vec Ideal S4x256 .f32)
        (r : Fin 512) (k : Fin 256),
      k1_pay12 (F := Ideal) (k1_pay2 x3) (k1_pay3 x3) (k1_pay4 x3) (k1_pay6 x0 x1) (k1_pay7 x0) (k1_pay8 x0 x1)
          (k1_pay9 x3) (k1_pay10 x0 x1 x2 x3) (k1_pay11 (F := Ideal)) (ValueIdx.ix2 r k)
        = Cert.Hyp.logitK (fun d => x0 (ValueIdx.ix2 r d)) (fun d => x1 (ValueIdx.ix2 k d))
            (fun d => x2 (ValueIdx.ix2 k d)) (x3 (ValueIdx.ix2 (0 : Fin 4) k)) (x3 (ValueIdx.ix2 (1 : Fin 4) k))
            (x3 (ValueIdx.ix2 (2 : Fin 4) k)) (x3 (ValueIdx.ix2 (3 : Fin 4) k)))
    (c : Dev nD) :
    (dat1 V c).arrAt 4 cfg1.N = fun i : S2048x256.Idx =>
      Cert.Hyp.logitK (fun d => (V c main_arg0 : Vec Ideal S2048x512 .f32) (ValueIdx.ix2 (i 0) d))
        (fun d => (V c main_v0_0 : Vec Ideal S256x512 .f32) (ValueIdx.ix2 (i 1) d))
        (fun d => (V c main_v0_1 : Vec Ideal S256x512 .f32) (ValueIdx.ix2 (i 1) d))
        ((V c main_v0_2 : Vec Ideal S4x256 .f32) (ValueIdx.ix2 (0 : Fin 4) (i 1)))
        ((V c main_v0_2 : Vec Ideal S4x256 .f32) (ValueIdx.ix2 (1 : Fin 4) (i 1)))
        ((V c main_v0_2 : Vec Ideal S4x256 .f32) (ValueIdx.ix2 (2 : Fin 4) (i 1)))
        ((V c main_v0_2 : Vec Ideal S4x256 .f32) (ValueIdx.ix2 (3 : Fin 4) (i 1))) :=
  (dat1 V c).arrAt_eq_of_cover 4 (logits (V c main_arg0) (V c main_v0_0) (V c main_v0_1) (V c main_v0_2))
    (fun t _ => flushed1_4_eq V hpay c t) cover1_4_all

end Cert.Hyp.Arrays

end
-- ==== Proof.Consts.lean ====
/-
  The float literals both programs spell, as the extended reals their words denote.
-/
import proofs.«110573_j34213709480136_1_alg».proof.Proof.Spec

noncomputable section

namespace Cert.Hyp

open Idealize.ShloMosaic

/-- The word of 1.0 denotes 1. -/
theorem ofBits_one : Ideal.ofBits .f32 0x3F800000#32 = one := by
  simp [Ideal.ofBits, Ideal.ieee, -EReal.coe_mul]; norm_num
/-- The word of 2.0 denotes 2. -/
theorem ofBits_two : Ideal.ofBits .f32 0x40000000#32 = two := by
  simp [Ideal.ofBits, Ideal.ieee, -EReal.coe_mul]; norm_num
/-- The word of 0.5 denotes 1/2. -/
theorem ofBits_half : Ideal.ofBits .f32 0x3F000000#32 = half := by
  simp [Ideal.ofBits, Ideal.ieee, -EReal.coe_mul]; norm_num
/-- The word of 15.0 denotes 15. -/
theorem ofBits_hi : Ideal.ofBits .f32 0x41700000#32 = hi := by
  simp [Ideal.ofBits, Ideal.ieee, -EReal.coe_mul]; norm_num
/-- The word of -15.0 denotes -15. -/
theorem ofBits_lo : Ideal.ofBits .f32 0xC1700000#32 = lo := by
  simp [Ideal.ofBits, Ideal.ieee, -EReal.coe_mul]; norm_num

end Cert.Hyp

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«110573_j34213709480136_1_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.PrepPayload.lean ====
/-
  The first region's stores, read at an entry.

  The first region sees the whole [256, 512] arrays p and a at its one grid point and leaves three arrays: the points P of
  the ball (row k is tanh(u)·p_k/u with u = max(‖p_k‖, ε₅)), the rescaled normals A (row k is a_k·(1 - ‖P_k‖²)), and a
  [4, 256] table whose column k holds ‖P_k‖², ⟨P_k, A_k⟩, max(‖A_k‖, ε₇) and 2/(1 - min(‖P_k‖², clamp))·max(‖A_k‖, ε₇).
  Each lemma reads one stored value at an entry as the corresponding function of rows k of p and of a.
-/
import proofs.«110573_j34213709480136_1_alg».proof.Proof.Gen.KernelIdeal.Skeleton
import proofs.«110573_j34213709480136_1_alg».proof.Proof.Spec
import proofs.«110573_j34213709480136_1_alg».proof.Proof.Consts
import proofs.«110573_j34213709480136_1_alg».proof.Proof.LibColumns
import Idealize.ShloMosaic.PureOps.IdealRules

noncomputable section

open scoped BigOperators

namespace Cert.Hyp.Prep

open Cert.KernelIdeal Cert.KernelIdeal.Gen
open Idealize.ShloMosaic Idealize.ShloMosaic.ValueIdx Cert.Columns

/-- Row k of a [256, 512] array. -/
def rowOf (X : S256x512.Idx → EReal) (k : Fin 256) : Row := fun d => X (ix2 k d)

theorem sqrt_at {s : Shape} (v : FVec Ideal s .f32) (i : s.Idx) : sqrt v i = Ideal.sqrt (v i) := rfl
theorem tanh_at {s : Shape} (v : FVec Ideal s .f32) (i : s.Idx) : tanh v i = Ideal.tanh (v i) := rfl

/-- The constant 1 of the kernel, named in the certificate's table, is the real 1. -/
theorem named_one : Named.named (F := Ideal) κ "a_exact_inv_1" (φ := .f32) 0x3F800000#32 = one :=
  IdealRules.named_const.ideal_named_scalar _ _ _ _ rfl

/-- The clamp of ‖P‖², named in the certificate's table, is one minus the reference's 1e-4 literal. -/
theorem named_clamp : Named.named (F := Ideal) κ "fold_c_137425209577_137438953472" (φ := .f32) 0x3F7FF972#32 = clamp :=
  IdealRules.named_const.ideal_named_scalar _ _ _ _ rfl

/-- A sum along the rows of a [256, 512] array, kept as a column: at (k, u) the sum over d of the array at (k, d). -/
theorem colSum (v : FVec Ideal S256x512 .f32) (hφ : FTy.f32 = FTy.f32 ∨ FTy.f32 = FTy.bf16) (hacc : (0#32 : BitVec FTy.f32.bits) = 0#32)
    (k : Fin 256) (u : Fin 1) :
    shapeCast S256x1 (multiReduction .add [1] S256 v (0#32) Gen.reduces_S256x512_S256 hφ hacc) Gen.shapeCasts_S256_S256x1 (ix2 k u)
      = ∑ d : Fin 512, v (ix2 k d) :=
  keepdimsSum_apply v _ _ hφ hacc _ k u

/-- The stored point of the ball, at (k, d). -/
theorem pay2_apply (x0 : Vec Ideal S256x512 .f32) (k : Fin 256) (d : Fin 512) :
    k0_pay2 (F := Ideal) x0 (ix2 k d) = pp (rowOf x0 k) d := by
  unfold k0_pay2
  try dsimp only
  simp only [divf_apply, mulf_apply, broadcastTo_a1_ab_apply, tanh_at, sqrt_at, minimumf_apply, maximumf_apply, broadcast_apply,
    Ideal.ofBits_def, ofBits_hi, ofBits_lo]
  rw [colSum]
  rfl

/-- ‖P_k‖², at (k, u). -/
theorem pay3_apply (x0 : Vec Ideal S256x512 .f32) (k : Fin 256) (u : Fin 1) :
    k0_pay3 (F := Ideal) x0 (ix2 k u) = sq (pp (rowOf x0 k)) := by
  unfold k0_pay3
  try dsimp only
  rw [colSum]
  simp only [mulf_apply, pay2_apply]
  rfl

/-- The stored rescaled normal, at (k, d). -/
theorem pay4_apply (x0 x1 : Vec Ideal S256x512 .f32) (k : Fin 256) (d : Fin 512) :
    k0_pay4 (F := Ideal) x0 x1 (ix2 k d) = ap (rowOf x1 k) (rowOf x0 k) d := by
  unfold k0_pay4
  try dsimp only
  simp only [mulf_apply, subf_apply, broadcastTo_a1_ab_apply, broadcast_apply, pay3_apply, named_one]
  rfl

/-- max(‖A_k‖, ε₇), at (k, u). -/
theorem pay5_apply (x0 x1 : Vec Ideal S256x512 .f32) (k : Fin 256) (u : Fin 1) :
    k0_pay5 (F := Ideal) x0 x1 (ix2 k u) = anorm (rowOf x1 k) (rowOf x0 k) := by
  unfold k0_pay5
  try dsimp only
  simp only [maximumf_apply, sqrt_at, broadcast_apply, Ideal.ofBits_def]
  rw [colSum]
  simp only [mulf_apply, pay4_apply]
  rfl

/-- ⟨P_k, A_k⟩, at (k, u). -/
theorem pay6_apply (x0 x1 : Vec Ideal S256x512 .f32) (k : Fin 256) (u : Fin 1) :
    k0_pay6 (F := Ideal) x0 x1 (ix2 k u) = dot (pp (rowOf x0 k)) (ap (rowOf x1 k) (rowOf x0 k)) := by
  unfold k0_pay6
  try dsimp only
  rw [colSum]
  simp only [mulf_apply, pay2_apply, pay4_apply]
  rfl

/-- 1 - min(‖P_k‖², clamp), at (k, u). -/
theorem pay7_apply (x0 : Vec Ideal S256x512 .f32) (k : Fin 256) (u : Fin 1) :
    k0_pay7 (F := Ideal) x0 (ix2 k u) = one - one * min (sq (pp (rowOf x0 k))) clamp := by
  unfold k0_pay7
  try dsimp only
  simp only [subf_apply, mulf_apply, minimumf_apply, broadcast_apply, pay3_apply, named_one, named_clamp]

/-! ## The [4, 256] table: four columns of per-k numbers side by side, then transposed -/

/-- Row 0 of the table is the first column: ‖P_k‖². -/
theorem table_row0 (v19 v31 v34 v40 : FVec Ideal S256x1 .f32) (c : Ideal .f32) (k : Fin 256) :
    k0_pay1 (F := Ideal) v19 v31 v34 v40 c (ix2 (0 : Fin 4) k) = v19 (ix2 k (0 : Fin 1)) := by
  unfold k0_pay1
  try dsimp only
  rw [transpose_ix2_apply]
  refine concatenate_apply_piece (1 : Fin S256x4.rank) _ _ (ix2 k (0 : Fin 4)) 0 (by show _ < 4; omega) S256x1 v19 rfl rfl 0 rfl
    (ix2 k (0 : Fin 1)) (fun b hb => ?_) rfl
  match b with
  | ⟨0, _⟩ => rfl
  | ⟨1, _⟩ => exact absurd rfl hb

/-- Row 1 of the table is the second column: ⟨P_k, A_k⟩. -/
theorem table_row1 (v19 v31 v34 v40 : FVec Ideal S256x1 .f32) (c : Ideal .f32) (k : Fin 256) :
    k0_pay1 (F := Ideal) v19 v31 v34 v40 c (ix2 (1 : Fin 4) k) = v34 (ix2 k (0 : Fin 1)) := by
  unfold k0_pay1
  try dsimp only
  rw [transpose_ix2_apply]
  refine concatenate_apply_piece (1 : Fin S256x4.rank) _ _ (ix2 k (1 : Fin 4)) 1 (by show _ < 4; omega) S256x1 v34 rfl rfl 1 rfl
    (ix2 k (0 : Fin 1)) (fun b hb => ?_) rfl
  match b with
  | ⟨0, _⟩ => rfl
  | ⟨1, _⟩ => exact absurd rfl hb

/-- Row 2 of the table is the third column: max(‖A_k‖, ε₇). -/
theorem table_row2 (v19 v31 v34 v40 : FVec Ideal S256x1 .f32) (c : Ideal .f32) (k : Fin 256) :
    k0_pay1 (F := Ideal) v19 v31 v34 v40 c (ix2 (2 : Fin 4) k) = v31 (ix2 k (0 : Fin 1)) := by
  unfold k0_pay1
  try dsimp only
  rw [transpose_ix2_apply]
  refine concatenate_apply_piece (1 : Fin S256x4.rank) _ _ (ix2 k (2 : Fin 4)) 2 (by show _ < 4; omega) S256x1 v31 rfl rfl 2 rfl
    (ix2 k (0 : Fin 1)) (fun b hb => ?_) rfl
  match b with
  | ⟨0, _⟩ => rfl
  | ⟨1, _⟩ => exact absurd rfl hb

/-- Row 3 of the table is the fourth column: the constant over the clamped conformal factor, times max(‖A_k‖, ε₇). -/
theorem table_row3 (v19 v31 v34 v40 : FVec Ideal S256x1 .f32) (c : Ideal .f32) (k : Fin 256) :
    k0_pay1 (F := Ideal) v19 v31 v34 v40 c (ix2 (3 : Fin 4) k) = Ideal.div c (v40 (ix2 k (0 : Fin 1))) * v31 (ix2 k (0 : Fin 1)) := by
  unfold k0_pay1
  try dsimp only
  rw [transpose_ix2_apply]
  refine (concatenate_apply_piece (1 : Fin S256x4.rank) _ _ (ix2 k (3 : Fin 4)) 3 (by show _ < 4; omega) S256x1 _ rfl rfl 3 rfl
    (ix2 k (0 : Fin 1)) (fun b hb => ?_) rfl).trans rfl
  match b with
  | ⟨0, _⟩ => rfl
  | ⟨1, _⟩ => exact absurd rfl hb

end Cert.Hyp.Prep

end
-- ==== Proof.MainPayloadOps.lean ====
/-
  The second region's operations read at an entry: the product of a [512, 512] block of x with the transposed rows of a
  [256, 512] array, the squared norms of the block's rows kept as a column, and the four rows of the [4, 256] table.
-/
import proofs.«110573_j34213709480136_1_alg».proof.Proof.Gen.KernelIdeal.Skeleton
import proofs.«110573_j34213709480136_1_alg».proof.Proof.Spec
import proofs.«110573_j34213709480136_1_alg».proof.Proof.Consts
import proofs.«110573_j34213709480136_1_alg».proof.Proof.LibColumns
import Idealize.ShloMosaic.PureOps.IdealRules
import Idealize.ShloMosaic.Lib.ValueLayout
import Idealize.ShloMosaic.Lib.Pipeline.Value

noncomputable section

open scoped BigOperators

namespace Cert.Hyp.Main

open Cert.KernelIdeal Cert.KernelIdeal.Gen
open Idealize.ShloMosaic Idealize.ShloMosaic.ValueIdx

/-- A square root of an array reads through. -/
theorem sqrt_at {s : Shape} (v : FVec Ideal s .f32) (i : s.Idx) : sqrt v i = Ideal.sqrt (v i) := rfl
/-- A logarithm of an array reads through. -/
theorem log_at {s : Shape} (v : FVec Ideal s .f32) (i : s.Idx) : log v i = Ideal.log (v i) := rfl

/-- The constant 1 of the kernel, named in the certificate's table, is the real 1. -/
theorem named_one : Named.named (F := Ideal) κ "a_exact_inv_1" (φ := .f32) 0x3F800000#32 = one :=
  IdealRules.named_const.ideal_named_scalar _ _ _ _ rfl

/-! ## The product over the last axes, through the transpose -/

/-- The left operand's row is the result's row. -/
theorem lhs_0 (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide),
    dif_pos (show (0 : Fin S512x512.rank) ∈ dot_S512x512_S512x256_S512x256_1_0_0_1_n_n.lhsNonContracting by decide)]
  rfl

/-- The left operand's column is the contraction position. -/
theorem lhs_1 (i : S512x256.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q

/-- The right operand's row is the contraction position. -/
theorem rhs_0 (i : S512x256.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q

/-- The right operand's column is the result's column. -/
theorem rhs_1 (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide),
    dif_pos (show (1 : Fin S512x256.rank) ∈ dot_S512x512_S512x256_S512x256_1_0_0_1_n_n.rhsNonContracting by decide)]
  rfl

/-- The product of the block x with the transposed array w (both narrowed, which changes nothing here; w through a
    shape cast to its own shape), into a zero accumulator, at (r, k): the inner product of row r of x with row k of w. -/
theorem prodT_apply (x : FVec Ideal S512x512 .f32) (w : FVec Ideal S256x512 .f32)
    (hs : S256x512.ShapeCasts S256x512) (hb : FTy.bits .bf16 < FTy.bits .f32) (ht : S256x512.Transposes [1, 0] S512x256)
    (r : Fin 512) (k : Fin 256) :
    matmul (F := Ideal) dot_S512x512_S512x256_S512x256_1_0_0_1_n_n none (truncf .bf16 x hb)
        (transpose S512x256 [1, 0] (truncf .bf16 (shapeCast S256x512 w hs) hb) ht)
        (constant (F := Ideal) S512x256 .f32 0x00000000#32) (ix2 r k)
      = ∑ d : Fin 512, x (ix2 r d) * w (ix2 k d) := by
  refine (Ideal.matmul_constant_zero_apply dot_S512x512_S512x256_S512x256_1_0_0_1_n_n none _ _ _).trans ?_
  rw [← Equiv.sum_comp (contrEquiv1 dot_S512x512_S512x256_S512x256_1_0_0_1_n_n 512 rfl rfl).symm]
  refine Finset.sum_congr rfl fun d _ => ?_
  have hk := contrEquiv1_symm_val dot_S512x512_S512x256_S512x256_1_0_0_1_n_n 512 rfl rfl d
  have el : dot_S512x512_S512x256_S512x256_1_0_0_1_n_n.lhsIdx (ix2 r k) ((contrEquiv1 dot_S512x512_S512x256_S512x256_1_0_0_1_n_n 512 rfl rfl).symm d) = ix2 r d :=
    funext fun a => Fin.ext (by
      match a with
      | ⟨0, _⟩ => exact lhs_0 _ _
      | ⟨1, _⟩ => exact (lhs_1 _ _).trans hk)
  have er : dot_S512x512_S512x256_S512x256_1_0_0_1_n_n.rhsIdx (ix2 r k) ((contrEquiv1 dot_S512x512_S512x256_S512x256_1_0_0_1_n_n 512 rfl rfl).symm d) = ix2 d k :=
    funext fun a => Fin.ext (by
      match a with
      | ⟨0, _⟩ => exact (rhs_0 _ _).trans hk
      | ⟨1, _⟩ => exact rhs_1 _ _)
  rw [el, er, transpose_ix2_apply, shapeCast_self]
  rfl

/-! ## The squared norms of the block's rows, as a column -/

/-- A sum along the rows of a [512, 512] array, kept as a column: at (r, u) the sum over d of the array at (r, d). -/
theorem colSum (v : FVec Ideal S512x512 .f32) (hφ : FTy.f32 = FTy.f32 ∨ FTy.f32 = FTy.bf16)
    (hacc : (0#32 : BitVec FTy.f32.bits) = 0#32) (r : Fin 512) (u : Fin 1) :
    shapeCast S512x1 (multiReduction (F := Ideal) .add [1] S512 v (0#32) Gen.reduces_S512x512_S512 hφ hacc) Gen.shapeCasts_S512_S512x1 (ix2 r u)
      = ∑ d : Fin 512, v (ix2 r d) :=
  Cert.Columns.keepdimsSum_apply v _ _ hφ hacc _ r u

/-! ## The table's rows -/

/-- The table through a shape cast to its own shape is the table. -/
theorem pay1_eq (x3 : Vec Ideal S4x256 .f32) : k1_pay1 (F := Ideal) x3 = x3 := shapeCast_self x3 _

/-- Row 0 of the table, at (0, c). -/
theorem pay2_apply (x3 : Vec Ideal S4x256 .f32) (c : Fin 256) :
    k1_pay2 (F := Ideal) x3 (ix2 (0 : Fin 1) c) = x3 (ix2 (0 : Fin 4) c) := by
  unfold k1_pay2
  rw [pay1_eq]
  exact slice2_axis0_apply 0 x3 _ (0 : Fin 1) c (0 : Fin 4) rfl

/-- Row 2 of the table, at (0, c). -/
theorem pay3_apply (x3 : Vec Ideal S4x256 .f32) (c : Fin 256) :
    k1_pay3 (F := Ideal) x3 (ix2 (0 : Fin 1) c) = x3 (ix2 (2 : Fin 4) c) := by
  unfold k1_pay3
  rw [pay1_eq]
  exact slice2_axis0_apply 2 x3 _ (0 : Fin 1) c (2 : Fin 4) rfl

/-- Row 3 of the table, at (0, c). -/
theorem pay4_apply (x3 : Vec Ideal S4x256 .f32) (c : Fin 256) :
    k1_pay4 (F := Ideal) x3 (ix2 (0 : Fin 1) c) = x3 (ix2 (3 : Fin 4) c) := by
  unfold k1_pay4
  rw [pay1_eq]
  exact slice2_axis0_apply 3 x3 _ (0 : Fin 1) c (3 : Fin 4) rfl

/-- Row 1 of the table, at (0, c). -/
theorem row1_apply (x3 : Vec Ideal S4x256 .f32) (c : Fin 256) :
    extractStridedSlice S1x256 ![1, 0] (k1_pay1 (F := Ideal) x3) Gen.slices_S4x256_o1_0_S1x256 (ix2 (0 : Fin 1) c)
      = x3 (ix2 (1 : Fin 4) c) := by
  rw [pay1_eq]
  exact slice2_axis0_apply 1 x3 _ (0 : Fin 1) c (1 : Fin 4) rfl

end Cert.Hyp.Main

end
-- ==== Proof.MainPayload.lean ====
/-
  The second region's stored payload read at an entry. With x row r of the block, P and A rows k of the points and the
  rescaled normals, and the table's column k holding ‖P‖², ⟨P, A⟩, max(‖A‖, ε₇) and the factor in front of the logarithm,
  the region forms xp = ⟨x, P⟩, xa = ⟨x, A⟩, y2 = ‖x‖², c1 = (1 - 2·xp) + 1·y2, c2 = 1 - 1·‖P‖², the numerator
  c1·(0 - ⟨P, A⟩) + c2·xa, and from them the logit, one operation after the other.
-/
import proofs.«110573_j34213709480136_1_alg».proof.Proof.MainPayloadOps

noncomputable section

open scoped BigOperators

namespace Cert.Hyp.Main

open Cert.KernelIdeal Cert.KernelIdeal.Gen
open Idealize.ShloMosaic Idealize.ShloMosaic.ValueIdx

open Cert.Columns

/-- ⟨x, P⟩: the first product, at (r, k). -/
theorem pay6_apply (x0 : Vec Ideal S512x512 .f32) (x1 : Vec Ideal S256x512 .f32) (r : Fin 512) (k : Fin 256) :
    k1_pay6 (F := Ideal) x0 x1 (ix2 r k) = dot (fun d => x0 (ix2 r d)) (fun d => x1 (ix2 k d)) :=
  prodT_apply x0 x1 _ _ _ r k

/-- ‖x‖² as a column, at (r, u). -/
theorem pay7_apply (x0 : Vec Ideal S512x512 .f32) (r : Fin 512) (u : Fin 1) :
    k1_pay7 (F := Ideal) x0 (ix2 r u) = sq (fun d => x0 (ix2 r d)) :=
  colSum (mulf x0 x0) _ _ r u

/-- c1 = (1 - 2·xp) + 1·y2, at (r, k). -/
theorem pay8_apply (x0 : Vec Ideal S512x512 .f32) (x1 : Vec Ideal S256x512 .f32) (r : Fin 512) (k : Fin 256) :
    k1_pay8 (F := Ideal) x0 x1 (ix2 r k) = (one - two * dot (fun d => x0 (ix2 r d)) (fun d => x1 (ix2 k d))) + one * sq (fun d => x0 (ix2 r d)) := by
  unfold k1_pay8
  simp only [addf_apply, subf_apply, mulf_apply, broadcast_apply, broadcastTo_a1_ab_apply, pay6_apply, pay7_apply,
    named_one, Ideal.ofBits_def, ofBits_two]

/-- c2 = 1 - 1·‖P‖², at (0, k). -/
theorem pay9_apply (x3 : Vec Ideal S4x256 .f32) (k : Fin 256) :
    k1_pay9 (F := Ideal) x3 (ix2 (0 : Fin 1) k) = one - one * x3 (ix2 (0 : Fin 4) k) := by
  unfold k1_pay9
  simp only [subf_apply, mulf_apply, broadcast_apply, pay2_apply, named_one]

/-- The numerator c1·(0 - ⟨P, A⟩) + c2·xa, at (r, k). -/
theorem pay10_apply (x0 : Vec Ideal S512x512 .f32) (x1 x2 : Vec Ideal S256x512 .f32) (x3 : Vec Ideal S4x256 .f32) (r : Fin 512) (k : Fin 256) :
    k1_pay10 (F := Ideal) x0 x1 x2 x3 (ix2 r k)
      = ((one - two * dot (fun d => x0 (ix2 r d)) (fun d => x1 (ix2 k d))) + one * sq (fun d => x0 (ix2 r d))) * (0 - x3 (ix2 (1 : Fin 4) k))
        + (one - one * x3 (ix2 (0 : Fin 4) k)) * dot (fun d => x0 (ix2 r d)) (fun d => x2 (ix2 k d)) := by
  unfold k1_pay10 k1_pay5
  simp only [addf_apply, subf_apply, mulf_apply, broadcast_apply, broadcastTo_1b_ab_apply, pay8_apply, pay9_apply, row1_apply,
    Ideal.ofBits_def, Ideal.ofBits_zero_f32]
  exact congrArg (_ + _ * ·) (prodT_apply x0 x2 _ _ _ r k)

/-- The stored logit, at (r, k). -/
theorem main_apply (x0 : Vec Ideal S512x512 .f32) (x1 x2 : Vec Ideal S256x512 .f32) (x3 : Vec Ideal S4x256 .f32) (r : Fin 512) (k : Fin 256) :
    k1_pay12 (F := Ideal) (k1_pay2 x3) (k1_pay3 x3) (k1_pay4 x3) (k1_pay6 x0 x1) (k1_pay7 x0) (k1_pay8 x0 x1) (k1_pay9 x3)
        (k1_pay10 x0 x1 x2 x3) (k1_pay11 (F := Ideal)) (ValueIdx.ix2 r k)
      = Cert.Hyp.logitK (fun d => x0 (ValueIdx.ix2 r d)) (fun d => x1 (ValueIdx.ix2 k d)) (fun d => x2 (ValueIdx.ix2 k d))
          (x3 (ValueIdx.ix2 (0 : Fin 4) k)) (x3 (ValueIdx.ix2 (1 : Fin 4) k)) (x3 (ValueIdx.ix2 (2 : Fin 4) k))
          (x3 (ValueIdx.ix2 (3 : Fin 4) k)) := by
  unfold k1_pay12 k1_pay11
  simp only [addf_apply, subf_apply, mulf_apply, divf_apply, maximumf_apply, sqrt_at, log_at, broadcast_apply,
    broadcastTo_1b_ab_apply, broadcastTo_a1_ab_apply, pay2_apply, pay3_apply, pay4_apply, pay6_apply, pay7_apply, pay8_apply,
    pay9_apply, pay10_apply, named_one, Ideal.ofBits_def, ofBits_two]
  rfl

end Cert.Hyp.Main

end
-- ==== Proof.Result.lean ====
/-
  The result array both programs end holding: entry (n, k) is the logit of row n of x against row k of a and of p.
-/
import proofs.«110573_j34213709480136_1_alg».proof.Proof.Spec
import Idealize.ShloMosaic.Lib.ValueIdx

noncomputable section

namespace Cert.Hyp

open Idealize.ShloMosaic Idealize.ShloMosaic.ValueIdx

/-- The [2048, 256] array of logits of x : [2048, 512] against a, p : [256, 512], in the kernel's arithmetic. -/
def result (X : (⟨2, ![2048, 512]⟩ : Shape).Idx → EReal) (A P : (⟨2, ![256, 512]⟩ : Shape).Idx → EReal) :
    (⟨2, ![2048, 256]⟩ : Shape).Idx → EReal :=
  fun i => kernelLogit (fun d => X (ix2 (i 0) d)) (fun d => A (ix2 (i 1) d)) (fun d => P (ix2 (i 1) d))

end Cert.Hyp

end
-- ==== Proof.KernelValue.lean ====
/-
  What the idealized kernel's result array holds after the run.

  At the return the result array is what the second region's write-backs leave: entry (n, k) is the logit computed from
  row n of x as the second region finds it (x itself: no region writes it) and from row k of the three arrays the first
  region left — the points P, the normals A and the table of per-k numbers. Those three are the first region's stores of
  the whole arrays p and a; read at an entry they are the functions of rows k of p and a that make up the kernel's logit.
-/
import proofs.«110573_j34213709480136_1_alg».proof.Proof.Gen.KernelIdeal.Frame
import proofs.«110573_j34213709480136_1_alg».proof.Proof.KernelArrays0
import proofs.«110573_j34213709480136_1_alg».proof.Proof.KernelArrays1
import proofs.«110573_j34213709480136_1_alg».proof.Proof.PrepPayload
import proofs.«110573_j34213709480136_1_alg».proof.Proof.MainPayload
import proofs.«110573_j34213709480136_1_alg».proof.Proof.Result

set_option maxRecDepth 16384

noncomputable section

namespace Cert.Hyp.KernelValue

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The result array at the return is what the second region's write-backs leave. -/
theorem result_is (c : Dev nD) : W2 m ρ c (Proc.devRef .tc main_v1) = (dat1 (V1 m ρ) c).arrAt 4 cfg1.N := W2_arr m ρ c 4
/-- The second region finds the points P as the first region's write-backs left them, -/
theorem points_is (c : Dev nD) : V1 m ρ c main_v0_0 = (dat0 (V0 m ρ) c).arrAt 2 cfg0.N := W1_arr m ρ c 2
/-- and likewise the normals A -/
theorem normals_is (c : Dev nD) : V1 m ρ c main_v0_1 = (dat0 (V0 m ρ) c).arrAt 3 cfg0.N := W1_arr m ρ c 3
/-- and the table of per-k numbers; -/
theorem table_is (c : Dev nD) : V1 m ρ c main_v0_2 = (dat0 (V0 m ρ) c).arrAt 4 cfg0.N := W1_arr m ρ c 4
/-- x it finds as launched: the first region does not touch it. -/
theorem x_is (c : Dev nD) : V1 m ρ c main_arg0 = m ((c.tc : Thread nD τ).loc main_arg0) := W1_of_ne m ρ c main_arg0 (by decide)

/-- The result array at the return is the array of logits of the launch contents of x, a and p. -/
theorem result_eq (c : Dev nD) :
    W2 m ρ c (Proc.devRef .tc main_v1)
      = result (m ((c.tc : Thread nD τ).loc main_arg0)) (m ((c.tc : Thread nD τ).loc main_arg1)) (m ((c.tc : Thread nD τ).loc main_arg2)) := by
  rw [result_is, Arrays.region1_result (V1 m ρ) Main.main_apply c]
  funext i
  obtain ⟨n, k, rfl⟩ : ∃ (n : Fin 2048) (k : Fin 256), i = ix2 n k := ⟨i 0, i 1, eq_ix2 i⟩
  rw [x_is, points_is, normals_is, table_is, Arrays.region0_points, Arrays.region0_normals, Arrays.region0_table]
  show Cert.Hyp.logitK _ (fun d => k0_pay2 (F := Ideal) _ (ix2 k d)) (fun d => k0_pay4 (F := Ideal) _ _ (ix2 k d))
    (k0_pay1 (F := Ideal) _ _ _ _ _ (ix2 (0 : Fin 4) k)) (k0_pay1 (F := Ideal) _ _ _ _ _ (ix2 (1 : Fin 4) k))
    (k0_pay1 (F := Ideal) _ _ _ _ _ (ix2 (2 : Fin 4) k)) (k0_pay1 (F := Ideal) _ _ _ _ _ (ix2 (3 : Fin 4) k)) = _
  simp only [Prep.table_row0, Prep.table_row1, Prep.table_row2, Prep.table_row3, Prep.pay2_apply, Prep.pay3_apply, Prep.pay4_apply,
    Prep.pay5_apply, Prep.pay6_apply, Prep.pay7_apply, Ideal.ofBits_def, ofBits_two]
  rfl

end Cert.Hyp.KernelValue

end
-- ==== Proof.RefReadK.lean ====
/-
  The reference's per-class quantities read at an index: for row k of a and p, the point of the ball
  P = tanh(clip(√c·u)) · p / (√c·u) with u = max(‖p‖, ε₅), the rescaled normal A = a · (1 - ‖P‖²),
  its clamped norm and the factor 2 / (1 - min(‖P‖², 1/1 - δ)) · max(‖A‖, ε₇) / √1.
  Each lemma reads one operation of the reference program, or one short run of them, at explicit coordinates.
-/
import proofs.«110573_j34213709480136_1_alg».proof.Proof.Gen.ReferenceIdeal.Read
import proofs.«110573_j34213709480136_1_alg».proof.Proof.Consts

noncomputable section

namespace Cert.Hyp.RefRead

open Idealize.ShloMosaic Idealize.ShloMosaic.ValueIdx Cert.ReferenceIdeal Cert.ReferenceIdeal.Read

/-- The norm of row k of p: the first call of the norm at (k, 0). -/
theorem norm_at (P : (⟨S256x512, .f32⟩ : BufTy).Contents (Elt Ideal)) (k : Fin 256) :
    val_main_v1 (F := Ideal) P (ix2 k (0 : Fin 1)) = Ideal.sqrt (sq (fun d => P (ix2 k d))) := by
  rw [val_main_v1_apply, val_main_call0_v2_apply, val_main_call0_v1_apply, val_main_call0_cst_apply]
  simp only [Ideal.hostUnary_sqrt_def, Ideal.ofBits_def, Ideal.ofBits_zero_f32, zero_add]
  unfold sq
  refine congrArg Ideal.sqrt (Finset.sum_congr rfl fun d _ => ?_)
  rw [val_main_call0_v0_apply, Ideal.mulf_def,
    show idx_main_call0_v1 (idx_main_call0_v2 (ix2 k (0 : Fin 1))) d = ix2 k d from (funext fun a => match a with | ⟨0, _⟩ => rfl | ⟨1, _⟩ => rfl)]

/-- max(‖p‖, ε₅): %3 at (k, 0). -/
theorem unorm_at (P : (⟨S256x512, .f32⟩ : BufTy).Contents (Elt Ideal)) (k : Fin 256) :
    val_main_v3 (F := Ideal) P (ix2 k (0 : Fin 1)) = unormR (fun d => P (ix2 k d)) := by
  rw [val_main_v3_apply, norm_at, val_main_v2_apply, val_main_cst_1_apply]
  simp only [Ideal.maximumf_def, Ideal.ofBits_def] <;> rfl

/-- √c: %0. -/
theorem sqrtC_at (i : S_.Idx) : val_main_v0 (F := Ideal) i = sqrtC := by
  rw [val_main_v0_apply, val_main_cst_apply, val_main_cst_0_apply]
  simp only [Ideal.hostPowf_def, Ideal.ofBits_def, ofBits_one, ofBits_half] <;> rfl

/-- √c · max(‖p‖, ε₅): %5 at (k, 0). -/
theorem v5_at (P : (⟨S256x512, .f32⟩ : BufTy).Contents (Elt Ideal)) (k : Fin 256) :
    val_main_v5 (F := Ideal) P (ix2 k (0 : Fin 1)) = sqrtC * unormR (fun d => P (ix2 k d)) := by
  rw [val_main_v5_apply, val_main_v4_apply, sqrtC_at, unorm_at]
  simp only [Ideal.mulf_def] <;> rfl

/-- The same product again: %11 at (k, 0). -/
theorem v11_at (P : (⟨S256x512, .f32⟩ : BufTy).Contents (Elt Ideal)) (k : Fin 256) :
    val_main_v11 (F := Ideal) P (ix2 k (0 : Fin 1)) = sqrtC * unormR (fun d => P (ix2 k d)) := by
  rw [val_main_v11_apply, val_main_v10_apply, sqrtC_at, unorm_at]
  simp only [Ideal.mulf_def] <;> rfl

/-- tanh of the clipped product: %7 at (k, 0). The clip is min(15, max(-15, ·)). -/
theorem v7_at (P : (⟨S256x512, .f32⟩ : BufTy).Contents (Elt Ideal)) (k : Fin 256) :
    val_main_v7 (F := Ideal) P (ix2 k (0 : Fin 1)) = thR (fun d => P (ix2 k d)) := by
  rw [val_main_v7_apply, val_main_v6_apply, val_main_call1_v4_apply, val_main_call1_v3_apply, val_main_cst_3_apply,
    val_main_call1_v2_apply, val_main_call1_v1_apply, val_main_call1_v0_apply, val_main_cst_2_apply, v5_at]
  simp only [Ideal.hostUnary_tanh_def, Ideal.minimumf_def, Ideal.maximumf_def, Ideal.ofBits_def, ofBits_hi, ofBits_lo] <;> rfl

/-- The point of the ball: %13 at (k, d). -/
theorem v13_at (P : (⟨S256x512, .f32⟩ : BufTy).Contents (Elt Ideal)) (k : Fin 256) (d : Fin 512) :
    val_main_v13 (F := Ideal) P (ix2 k d) = ppR (fun d => P (ix2 k d)) d := by
  rw [val_main_v13_apply, val_main_v9_apply, val_main_v8_apply, val_main_v12_apply,
    show idx_main_v8 (ix2 k d) = ix2 k (0 : Fin 1) from (funext fun a => match a with | ⟨0, _⟩ => rfl | ⟨1, _⟩ => rfl),
    show idx_main_v12 (ix2 k d) = ix2 k (0 : Fin 1) from (funext fun a => match a with | ⟨0, _⟩ => rfl | ⟨1, _⟩ => rfl), v7_at, v11_at]
  simp only [Ideal.hostDivf_def, Ideal.mulf_def] <;> rfl

/-- ‖P‖²: %15 at k. -/
theorem v15_at (P : (⟨S256x512, .f32⟩ : BufTy).Contents (Elt Ideal)) (k : Fin 256) :
    val_main_v15 (F := Ideal) P (ix1 k) = sq (ppR (fun d => P (ix2 k d))) := by
  rw [val_main_v15_apply, val_main_cst_4_apply]
  simp only [Ideal.ofBits_def, Ideal.ofBits_zero_f32, zero_add]
  unfold sq
  refine Finset.sum_congr rfl fun d _ => ?_
  rw [val_main_v14_apply, Ideal.mulf_def, show idx_main_v15 (ix1 k) d = ix2 k d from (funext fun a => match a with | ⟨0, _⟩ => rfl | ⟨1, _⟩ => rfl), v13_at]

/-- ‖P‖² once more: %24 at k. -/
theorem v24_at (P : (⟨S256x512, .f32⟩ : BufTy).Contents (Elt Ideal)) (k : Fin 256) :
    val_main_v24 (F := Ideal) P (ix1 k) = sq (ppR (fun d => P (ix2 k d))) := by
  rw [val_main_v24_apply, val_main_cst_7_apply]
  simp only [Ideal.ofBits_def, Ideal.ofBits_zero_f32, zero_add]
  unfold sq
  refine Finset.sum_congr rfl fun d _ => ?_
  rw [val_main_v23_apply, Ideal.mulf_def, show idx_main_v24 (ix1 k) d = ix2 k d from (funext fun a => match a with | ⟨0, _⟩ => rfl | ⟨1, _⟩ => rfl), v13_at]

/-- The conformal factor 1 - 1 · ‖P‖²: %20 at (k, 0). -/
theorem v20_at (P : (⟨S256x512, .f32⟩ : BufTy).Contents (Elt Ideal)) (k : Fin 256) :
    val_main_v20 (F := Ideal) P (ix2 k (0 : Fin 1)) = one - one * sq (ppR (fun d => P (ix2 k d))) := by
  rw [val_main_v20_apply, val_main_v19_apply, val_main_cst_6_apply, val_main_v18_apply, val_main_v17_apply,
    val_main_cst_5_apply, val_main_v16_apply, show idx_main_v16 (ix2 k (0 : Fin 1)) = ix1 k from (funext fun a => match a with | ⟨0, _⟩ => rfl), v15_at]
  simp only [Ideal.subf_def, Ideal.mulf_def, Ideal.ofBits_def, ofBits_one] <;> rfl

/-- The rescaled normal: %22 at (k, d). -/
theorem v22_at (A P : (⟨S256x512, .f32⟩ : BufTy).Contents (Elt Ideal)) (k : Fin 256) (d : Fin 512) :
    val_main_v22 (F := Ideal) A P (ix2 k d) = apR (fun d => A (ix2 k d)) (fun d => P (ix2 k d)) d := by
  rw [val_main_v22_apply, val_main_v21_apply, show idx_main_v21 (ix2 k d) = ix2 k (0 : Fin 1) from (funext fun a => match a with | ⟨0, _⟩ => rfl | ⟨1, _⟩ => rfl), v20_at]
  simp only [Ideal.mulf_def] <;> rfl

/-- 2 / (1 - 1 · min(‖P‖², 1/1 - δ)): %34 at k. -/
theorem v34_at (P : (⟨S256x512, .f32⟩ : BufTy).Contents (Elt Ideal)) (k : Fin 256) :
    val_main_v34 (F := Ideal) P (ix1 k)
      = Ideal.div two (one - one * min (sq (ppR (fun d => P (ix2 k d)))) (Ideal.div one one - dlit)) := by
  rw [val_main_v34_apply, val_main_v33_apply, val_main_cst_13_apply, val_main_v32_apply, val_main_v31_apply,
    val_main_cst_12_apply, val_main_v30_apply, val_main_v29_apply, val_main_cst_11_apply, val_main_v28_apply, v24_at,
    val_main_v27_apply, val_main_v26_apply, val_main_v25_apply, val_main_cst_8_apply, val_main_cst_9_apply,
    val_main_cst_10_apply]
  simp only [Ideal.hostDivf_def, Ideal.subf_def, Ideal.mulf_def, Ideal.minimumf_def, Ideal.ofBits_def, ofBits_one, ofBits_two] <;> rfl

/-- ‖A‖²: the sum inside the second call of the norm, at k. -/
theorem call2_v1_at (A P : (⟨S256x512, .f32⟩ : BufTy).Contents (Elt Ideal)) (k : Fin 256) :
    val_main_call2_v1 (F := Ideal) A P (ix1 k) = sq (apR (fun d => A (ix2 k d)) (fun d => P (ix2 k d))) := by
  rw [val_main_call2_v1_apply, val_main_call2_cst_apply]
  simp only [Ideal.ofBits_def, Ideal.ofBits_zero_f32, zero_add]
  unfold sq
  refine Finset.sum_congr rfl fun d _ => ?_
  rw [val_main_call2_v0_apply, Ideal.mulf_def, show idx_main_call2_v1 (ix1 k) d = ix2 k d from (funext fun a => match a with | ⟨0, _⟩ => rfl | ⟨1, _⟩ => rfl), v22_at]

/-- max(‖A‖, ε₇): %37 at k. -/
theorem v37_at (A P : (⟨S256x512, .f32⟩ : BufTy).Contents (Elt Ideal)) (k : Fin 256) :
    val_main_v37 (F := Ideal) A P (ix1 k) = anormR (fun d => A (ix2 k d)) (fun d => P (ix2 k d)) := by
  rw [val_main_v37_apply, val_main_v35_apply, call2_v1_at, val_main_v36_apply, val_main_cst_14_apply]
  simp only [Ideal.maximumf_def, Ideal.hostUnary_sqrt_def, Ideal.ofBits_def] <;> rfl

/-- The factor in front of the logarithm: %41 at k. -/
theorem v41_at (A P : (⟨S256x512, .f32⟩ : BufTy).Contents (Elt Ideal)) (k : Fin 256) :
    val_main_v41 (F := Ideal) A P (ix1 k) = kvalR (fun d => A (ix2 k d)) (fun d => P (ix2 k d)) := by
  rw [val_main_v41_apply, val_main_v38_apply, v34_at, v37_at, val_main_v40_apply, val_main_v39_apply,
    val_main_cst_15_apply]
  simp only [Ideal.hostDivf_def, Ideal.mulf_def, Ideal.hostUnary_sqrt_def, Ideal.ofBits_def, ofBits_one] <;> rfl

/-- ‖A‖² again: the sum inside the third call of the norm, at k. -/
theorem call3_v1_at (A P : (⟨S256x512, .f32⟩ : BufTy).Contents (Elt Ideal)) (k : Fin 256) :
    val_main_call3_v1 (F := Ideal) A P (ix1 k) = sq (apR (fun d => A (ix2 k d)) (fun d => P (ix2 k d))) := by
  rw [val_main_call3_v1_apply, val_main_call3_cst_apply]
  simp only [Ideal.ofBits_def, Ideal.ofBits_zero_f32, zero_add]
  unfold sq
  refine Finset.sum_congr rfl fun d _ => ?_
  rw [val_main_call3_v0_apply, Ideal.mulf_def, show idx_main_call3_v1 (ix1 k) d = ix2 k d from (funext fun a => match a with | ⟨0, _⟩ => rfl | ⟨1, _⟩ => rfl), v22_at]

/-- max(‖A‖, ε₇) in the denominator: %103 at (k, 0). -/
theorem v103_at (A P : (⟨S256x512, .f32⟩ : BufTy).Contents (Elt Ideal)) (k : Fin 256) :
    val_main_v103 (F := Ideal) A P (ix2 k (0 : Fin 1)) = anormR (fun d => A (ix2 k d)) (fun d => P (ix2 k d)) := by
  rw [val_main_v103_apply, val_main_v101_apply, val_main_call3_v2_apply,
    show idx_main_call3_v2 (ix2 k (0 : Fin 1)) = ix1 k from (funext fun a => match a with | ⟨0, _⟩ => rfl), call3_v1_at, val_main_v102_apply,
    val_main_cst_32_apply]
  simp only [Ideal.maximumf_def, Ideal.hostUnary_sqrt_def, Ideal.ofBits_def] <;> rfl

end Cert.Hyp.RefRead

end
-- ==== Proof.RefReadM.lean ====
/-
  The reference's Möbius sum read at an index. With Pk the point of the ball of class k (row k of %13),
  Ak its rescaled normal (row k of %22) and x row n of the input, the reference forms, coordinate by coordinate,
  M = (α · (-Pk) + β · x) / D  with  α = (1 + (2·1)·⟨-Pk, x⟩) + 1·‖x‖²,  β = 1 - 1·‖-Pk‖²,
  D = ((1 + (2·1)·⟨-Pk, x⟩) + ((1·1)·‖-Pk‖²)·‖x‖²) + ε₅,  then  ⟨M, Ak⟩  and  ‖M‖²,  their ratio, and the logit.
  Here the two rows Pk, Ak and the two per-class scalars stay as the program's own values at their indices.
-/
import proofs.«110573_j34213709480136_1_alg».proof.Proof.Gen.ReferenceIdeal.Read
import proofs.«110573_j34213709480136_1_alg».proof.Proof.Consts

noncomputable section

namespace Cert.Hyp.RefRead

open Idealize.ShloMosaic Idealize.ShloMosaic.ValueIdx Cert.ReferenceIdeal Cert.ReferenceIdeal.Read

/-- ⟨-P, x⟩. -/
def xyR (x P : Row) : EReal := ∑ d : Fin 512, (-(P d)) * x d
/-- ‖-P‖². -/
def x2R (P : Row) : EReal := ∑ d : Fin 512, (-(P d)) * (-(P d))
/-- α = (1 + (2·1)·⟨-P, x⟩) + 1·‖x‖². -/
def alR (x P : Row) : EReal := (one + (two * one) * xyR x P) + one * sq x
/-- β = 1 - 1·‖-P‖². -/
def beR (P : Row) : EReal := one - one * x2R P
/-- D = ((1 + (2·1)·⟨-P, x⟩) + ((1·1)·‖-P‖²)·‖x‖²) + ε₅. -/
def dnR (x P : Row) : EReal := ((one + (two * one) * xyR x P) + ((one * one) * x2R P) * sq x) + eps5
/-- The Möbius sum of -P and x, coordinate by coordinate. -/
def mobR (x P : Row) : Row := fun d => Ideal.div (alR x P * (-(P d)) + beR P * x d) (dnR x P)
/-- The argument of the inverse hyperbolic sine. -/
def ratioR (x P A : Row) (an : EReal) : EReal :=
  Ideal.div ((two * Ideal.sqrt one) * ∑ d : Fin 512, mobR x P d * A d)
    (an * (one - one * ∑ d : Fin 512, mobR x P d * mobR x P d))

/-- The reference's logit in these words. -/
theorem logitR_eq (x P A : Row) (an kv : EReal) :
    logitR x P A an kv
      = kv * Ideal.log (max (ratioR x P A an + Ideal.sqrt (one + ratioR x P A an * ratioR x P A an)) eps5) := rfl

/-- -P: %42 at (k, d). -/
theorem v42_at (P : (⟨S256x512, .f32⟩ : BufTy).Contents (Elt Ideal)) (k : Fin 256) (d : Fin 512) :
    val_main_v42 (F := Ideal) P (ix2 k d) = -(val_main_v13 (F := Ideal) P (ix2 k d)) := by
  rw [val_main_v42_apply]
  simp only [Ideal.hostNegf_def, Ideal.negf_def] <;> rfl

/-- ⟨-Pk, x⟩: the contraction %43 at (k, n). -/
theorem v43_at (X : (⟨S2048x512, .f32⟩ : BufTy).Contents (Elt Ideal)) (P : (⟨S256x512, .f32⟩ : BufTy).Contents (Elt Ideal)) (k : Fin 256) (n : Fin 2048) :
    val_main_v43 (F := Ideal) X P (ix2 k n) = xyR (fun d => X (ix2 n d)) (fun d => val_main_v13 (F := Ideal) P (ix2 k d)) := by
  rw [val_main_v43_apply]
  unfold xyR
  refine Finset.sum_congr rfl fun d _ => ?_
  rw [show lidx_main_v43 (ix2 k n) d = ix2 k d from (funext fun a => match a with | ⟨0, _⟩ => rfl | ⟨1, _⟩ => rfl),
    show ridx_main_v43 (ix2 k n) d = ix2 n d from (funext fun a => match a with | ⟨0, _⟩ => rfl | ⟨1, _⟩ => rfl), v42_at]

/-- ‖-Pk‖²: %45 at k. -/
theorem v45_at (P : (⟨S256x512, .f32⟩ : BufTy).Contents (Elt Ideal)) (k : Fin 256) :
    val_main_v45 (F := Ideal) P (ix1 k) = x2R (fun d => val_main_v13 (F := Ideal) P (ix2 k d)) := by
  rw [val_main_v45_apply, val_main_cst_16_apply]
  simp only [Ideal.ofBits_def, Ideal.ofBits_zero_f32, zero_add]
  unfold x2R
  refine Finset.sum_congr rfl fun d _ => ?_
  rw [val_main_v44_apply, Ideal.mulf_def, show idx_main_v45 (ix1 k) d = ix2 k d from (funext fun a => match a with | ⟨0, _⟩ => rfl | ⟨1, _⟩ => rfl), v42_at]

/-- The same as a column: %46 at (k, 0). -/
theorem v46_at (P : (⟨S256x512, .f32⟩ : BufTy).Contents (Elt Ideal)) (k : Fin 256) :
    val_main_v46 (F := Ideal) P (ix2 k (0 : Fin 1)) = x2R (fun d => val_main_v13 (F := Ideal) P (ix2 k d)) := by
  rw [val_main_v46_apply, show idx_main_v46 (ix2 k (0 : Fin 1)) = ix1 k from (funext fun a => match a with | ⟨0, _⟩ => rfl), v45_at]

/-- ‖x‖²: %48 at n. -/
theorem v48_at (X : (⟨S2048x512, .f32⟩ : BufTy).Contents (Elt Ideal)) (n : Fin 2048) :
    val_main_v48 (F := Ideal) X (ix1 n) = sq (fun d => X (ix2 n d)) := by
  rw [val_main_v48_apply, val_main_cst_17_apply]
  simp only [Ideal.ofBits_def, Ideal.ofBits_zero_f32, zero_add]
  unfold sq
  refine Finset.sum_congr rfl fun d _ => ?_
  rw [val_main_v47_apply, Ideal.mulf_def, show idx_main_v48 (ix1 n) d = ix2 n d from (funext fun a => match a with | ⟨0, _⟩ => rfl | ⟨1, _⟩ => rfl)]

/-- The same as a column: %49 at (n, 0). -/
theorem v49_at (X : (⟨S2048x512, .f32⟩ : BufTy).Contents (Elt Ideal)) (n : Fin 2048) :
    val_main_v49 (F := Ideal) X (ix2 n (0 : Fin 1)) = sq (fun d => X (ix2 n d)) := by
  rw [val_main_v49_apply, show idx_main_v49 (ix2 n (0 : Fin 1)) = ix1 n from (funext fun a => match a with | ⟨0, _⟩ => rfl), v48_at]

/-- α: %59 at (k, n). -/
theorem v59_at (X : (⟨S2048x512, .f32⟩ : BufTy).Contents (Elt Ideal)) (P : (⟨S256x512, .f32⟩ : BufTy).Contents (Elt Ideal)) (k : Fin 256) (n : Fin 2048) :
    val_main_v59 (F := Ideal) X P (ix2 k n) = alR (fun d => X (ix2 n d)) (fun d => val_main_v13 (F := Ideal) P (ix2 k d)) := by
  rw [val_main_v59_apply, val_main_v54_apply, val_main_v53_apply, val_main_cst_20_apply, val_main_v52_apply,
    val_main_v51_apply, val_main_v50_apply, val_main_cst_18_apply, val_main_cst_19_apply, v43_at,
    val_main_v58_apply, val_main_v57_apply, val_main_v56_apply, val_main_cst_21_apply, val_main_v55_apply,
    show idx_main_v55 (idx_main_v58 (ix2 k n)) = ix2 n (0 : Fin 1) from (funext fun a => match a with | ⟨0, _⟩ => rfl | ⟨1, _⟩ => rfl), v49_at]
  simp only [Ideal.addf_def, Ideal.mulf_def, Ideal.ofBits_def, ofBits_one, ofBits_two] <;> rfl

/-- β: %68 at (k, 0). -/
theorem v68_at (P : (⟨S256x512, .f32⟩ : BufTy).Contents (Elt Ideal)) (k : Fin 256) :
    val_main_v68 (F := Ideal) P (ix2 k (0 : Fin 1)) = beR (fun d => val_main_v13 (F := Ideal) P (ix2 k d)) := by
  rw [val_main_v68_apply, val_main_v67_apply, val_main_cst_23_apply, val_main_v66_apply, val_main_v65_apply,
    val_main_cst_22_apply, v46_at]
  simp only [Ideal.subf_def, Ideal.mulf_def, Ideal.ofBits_def, ofBits_one] <;> rfl

/-- The numerator α · (-Pk) + β · x: %74 at (k, n, d). -/
theorem v74_at (X : (⟨S2048x512, .f32⟩ : BufTy).Contents (Elt Ideal)) (P : (⟨S256x512, .f32⟩ : BufTy).Contents (Elt Ideal)) (k : Fin 256) (n : Fin 2048) (d : Fin 512) :
    val_main_v74 (F := Ideal) X P (ix3 k n d)
      = alR (fun d => X (ix2 n d)) (fun d => val_main_v13 (F := Ideal) P (ix2 k d)) * (-(val_main_v13 (F := Ideal) P (ix2 k d))) + beR (fun d => val_main_v13 (F := Ideal) P (ix2 k d)) * X (ix2 n d) := by
  rw [val_main_v74_apply, val_main_v64_apply, val_main_v62_apply, val_main_v60_apply,
    show idx_main_v60 (idx_main_v62 (ix3 k n d)) = ix2 k n from (funext fun a => match a with | ⟨0, _⟩ => rfl | ⟨1, _⟩ => rfl), v59_at,
    val_main_v63_apply, val_main_v61_apply,
    show idx_main_v61 (idx_main_v63 (ix3 k n d)) = ix2 k d from (funext fun a => match a with | ⟨0, _⟩ => rfl | ⟨1, _⟩ => rfl), v42_at,
    val_main_v73_apply, val_main_v71_apply, val_main_v69_apply,
    show idx_main_v69 (idx_main_v71 (ix3 k n d)) = ix2 k (0 : Fin 1) from (funext fun a => match a with | ⟨0, _⟩ => rfl | ⟨1, _⟩ => rfl), v68_at,
    val_main_v72_apply, val_main_v70_apply,
    show idx_main_v70 (idx_main_v72 (ix3 k n d)) = ix2 n d from (funext fun a => match a with | ⟨0, _⟩ => rfl | ⟨1, _⟩ => rfl)]
  simp only [Ideal.addf_def, Ideal.mulf_def] <;> rfl

/-- D without ε₅: %87 at (k, n). -/
theorem v87_at (X : (⟨S2048x512, .f32⟩ : BufTy).Contents (Elt Ideal)) (P : (⟨S256x512, .f32⟩ : BufTy).Contents (Elt Ideal)) (k : Fin 256) (n : Fin 2048) :
    val_main_v87 (F := Ideal) X P (ix2 k n)
      = (one + (two * one) * xyR (fun d => X (ix2 n d)) (fun d => val_main_v13 (F := Ideal) P (ix2 k d))) + ((one * one) * x2R (fun d => val_main_v13 (F := Ideal) P (ix2 k d))) * sq (fun d => X (ix2 n d)) := by
  rw [val_main_v87_apply, val_main_v79_apply, val_main_v78_apply, val_main_cst_26_apply, val_main_v77_apply,
    val_main_v76_apply, val_main_v75_apply, val_main_cst_24_apply, val_main_cst_25_apply, v43_at,
    val_main_v86_apply, val_main_v84_apply, val_main_v82_apply, val_main_v81_apply, val_main_v80_apply,
    val_main_cst_27_apply, show idx_main_v84 (ix2 k n) = ix2 k (0 : Fin 1) from (funext fun a => match a with | ⟨0, _⟩ => rfl | ⟨1, _⟩ => rfl), v46_at,
    val_main_v85_apply, val_main_v83_apply,
    show idx_main_v83 (idx_main_v85 (ix2 k n)) = ix2 n (0 : Fin 1) from (funext fun a => match a with | ⟨0, _⟩ => rfl | ⟨1, _⟩ => rfl), v49_at]
  simp only [Ideal.addf_def, Ideal.mulf_def, Ideal.ofBits_def, ofBits_one, ofBits_two] <;> rfl

/-- D: %91 at (k, n, d). -/
theorem v91_at (X : (⟨S2048x512, .f32⟩ : BufTy).Contents (Elt Ideal)) (P : (⟨S256x512, .f32⟩ : BufTy).Contents (Elt Ideal)) (k : Fin 256) (n : Fin 2048) (d : Fin 512) :
    val_main_v91 (F := Ideal) X P (ix3 k n d) = dnR (fun d => X (ix2 n d)) (fun d => val_main_v13 (F := Ideal) P (ix2 k d)) := by
  rw [val_main_v91_apply, val_main_v90_apply, val_main_v88_apply,
    show idx_main_v88 (idx_main_v91 (ix3 k n d)) = ix2 k n from (funext fun a => match a with | ⟨0, _⟩ => rfl | ⟨1, _⟩ => rfl), v87_at, val_main_v89_apply,
    val_main_cst_28_apply]
  simp only [Ideal.addf_def, Ideal.ofBits_def] <;> rfl

/-- The Möbius sum's coordinate: %92 at (k, n, d). -/
theorem v92_at (X : (⟨S2048x512, .f32⟩ : BufTy).Contents (Elt Ideal)) (P : (⟨S256x512, .f32⟩ : BufTy).Contents (Elt Ideal)) (k : Fin 256) (n : Fin 2048) (d : Fin 512) :
    val_main_v92 (F := Ideal) X P (ix3 k n d) = mobR (fun d => X (ix2 n d)) (fun d => val_main_v13 (F := Ideal) P (ix2 k d)) d := by
  rw [val_main_v92_apply, v74_at, v91_at]
  simp only [Ideal.hostDivf_def] <;> rfl

/-- ⟨M, Ak⟩: %98 at (k, n). -/
theorem v98_at (X : (⟨S2048x512, .f32⟩ : BufTy).Contents (Elt Ideal)) (A P : (⟨S256x512, .f32⟩ : BufTy).Contents (Elt Ideal)) (k : Fin 256) (n : Fin 2048) :
    val_main_v98 (F := Ideal) X A P (ix2 k n) = ∑ d : Fin 512, mobR (fun d => X (ix2 n d)) (fun d => val_main_v13 (F := Ideal) P (ix2 k d)) d * (fun d => val_main_v22 (F := Ideal) A P (ix2 k d)) d := by
  rw [val_main_v98_apply, val_main_cst_31_apply]
  simp only [Ideal.ofBits_def, Ideal.ofBits_zero_f32, zero_add]
  refine Finset.sum_congr rfl fun d _ => ?_
  rw [val_main_v97_apply, Ideal.mulf_def, show idx_main_v98 (ix2 k n) d = ix3 k n d from (funext fun a => match a with | ⟨0, _⟩ => rfl | ⟨1, _⟩ => rfl | ⟨2, _⟩ => rfl), v92_at,
    val_main_v96_apply, val_main_v95_apply,
    show idx_main_v95 (idx_main_v96 (ix3 k n d)) = ix2 k d from (funext fun a => match a with | ⟨0, _⟩ => rfl | ⟨1, _⟩ => rfl)]

/-- ‖M‖²: %105 at (k, n). -/
theorem v105_at (X : (⟨S2048x512, .f32⟩ : BufTy).Contents (Elt Ideal)) (P : (⟨S256x512, .f32⟩ : BufTy).Contents (Elt Ideal)) (k : Fin 256) (n : Fin 2048) :
    val_main_v105 (F := Ideal) X P (ix2 k n) = ∑ d : Fin 512, mobR (fun d => X (ix2 n d)) (fun d => val_main_v13 (F := Ideal) P (ix2 k d)) d * mobR (fun d => X (ix2 n d)) (fun d => val_main_v13 (F := Ideal) P (ix2 k d)) d := by
  rw [val_main_v105_apply, val_main_cst_33_apply]
  simp only [Ideal.ofBits_def, Ideal.ofBits_zero_f32, zero_add]
  refine Finset.sum_congr rfl fun d _ => ?_
  rw [val_main_v104_apply, Ideal.mulf_def, show idx_main_v105 (ix2 k n) d = ix3 k n d from (funext fun a => match a with | ⟨0, _⟩ => rfl | ⟨1, _⟩ => rfl | ⟨2, _⟩ => rfl), v92_at]

/-- The ratio: %113 at (k, n). -/
theorem v113_at (X : (⟨S2048x512, .f32⟩ : BufTy).Contents (Elt Ideal)) (A P : (⟨S256x512, .f32⟩ : BufTy).Contents (Elt Ideal)) (k : Fin 256) (n : Fin 2048) :
    val_main_v113 (F := Ideal) X A P (ix2 k n)
      = ratioR (fun d => X (ix2 n d)) (fun d => val_main_v13 (F := Ideal) P (ix2 k d)) (fun d => val_main_v22 (F := Ideal) A P (ix2 k d)) (val_main_v103 (F := Ideal) A P (ix2 k (0 : Fin 1))) := by
  rw [val_main_v113_apply, val_main_v100_apply, val_main_v99_apply, val_main_v94_apply, val_main_cst_30_apply,
    val_main_v93_apply, val_main_cst_29_apply, v98_at,
    val_main_v111_apply, val_main_v110_apply, show idx_main_v110 (ix2 k n) = ix2 k (0 : Fin 1) from (funext fun a => match a with | ⟨0, _⟩ => rfl | ⟨1, _⟩ => rfl),
    val_main_v109_apply, val_main_v108_apply, val_main_cst_35_apply, val_main_v107_apply, val_main_v106_apply,
    val_main_cst_34_apply, v105_at]
  simp only [Ideal.hostDivf_def, Ideal.subf_def, Ideal.mulf_def, Ideal.hostUnary_sqrt_def, Ideal.ofBits_def,
    ofBits_one, ofBits_two] <;> rfl

/-- The logit: %124 at (n, k), the transpose of %123 at (k, n). -/
theorem v124_at (X : (⟨S2048x512, .f32⟩ : BufTy).Contents (Elt Ideal)) (A P : (⟨S256x512, .f32⟩ : BufTy).Contents (Elt Ideal)) (n : Fin 2048) (k : Fin 256) :
    val_main_v124 (F := Ideal) X A P (ix2 n k)
      = logitR (fun d => X (ix2 n d)) (fun d => val_main_v13 (F := Ideal) P (ix2 k d)) (fun d => val_main_v22 (F := Ideal) A P (ix2 k d)) (val_main_v103 (F := Ideal) A P (ix2 k (0 : Fin 1)))
          (val_main_v41 (F := Ideal) A P (ix1 k)) := by
  rw [val_main_v124_apply, show idx_main_v124 (ix2 n k) = ix2 k n from (funext fun a => match a with | ⟨0, _⟩ => rfl | ⟨1, _⟩ => rfl),
    val_main_v123_apply, val_main_v122_apply, val_main_v112_apply,
    show idx_main_v112 (idx_main_v122 (ix2 k n)) = ix1 k from (funext fun a => match a with | ⟨0, _⟩ => rfl),
    val_main_v121_apply, val_main_v120_apply, val_main_v118_apply, val_main_v117_apply, val_main_v116_apply,
    val_main_v115_apply, val_main_cst_36_apply, val_main_v114_apply, v113_at, val_main_v119_apply,
    val_main_cst_37_apply, logitR_eq]
  simp only [Ideal.mulf_def, Ideal.addf_def, Ideal.maximumf_def, Ideal.hostUnary_log_def, Ideal.hostUnary_sqrt_def,
    Ideal.ofBits_def, ofBits_one] <;> rfl

end Cert.Hyp.RefRead

end
-- ==== Proof.RefRead.lean ====
/-
  The reference's result at (n, k) is the reference-side logit of row n of x and row k of a and p:
  the Möbius part read with the program's own rows, then the two rows and the two per-class scalars read
  down to the inputs.
-/
import proofs.«110573_j34213709480136_1_alg».proof.Proof.RefReadK
import proofs.«110573_j34213709480136_1_alg».proof.Proof.RefReadM

noncomputable section

namespace Cert.Hyp.RefRead

open Idealize.ShloMosaic Idealize.ShloMosaic.ValueIdx Cert.ReferenceIdeal Cert.ReferenceIdeal.Read

/-- The reference program's result, element by element. -/
theorem result_apply (X : (⟨S2048x512, .f32⟩ : BufTy).Contents (Elt Ideal)) (A P : (⟨S256x512, .f32⟩ : BufTy).Contents (Elt Ideal))
    (n : Fin 2048) (k : Fin 256) :
    Cert.ReferenceIdeal.Read.val_main_v124 (F := Ideal) X A P (ValueIdx.ix2 n k)
      = Cert.Hyp.refLogit (fun d => X (ValueIdx.ix2 n d)) (fun d => A (ValueIdx.ix2 k d)) (fun d => P (ValueIdx.ix2 k d)) := by
  have hP : (fun d => val_main_v13 (F := Ideal) P (ix2 k d)) = ppR (fun d => P (ix2 k d)) :=
    funext fun d => v13_at P k d
  have hA : (fun d => val_main_v22 (F := Ideal) A P (ix2 k d)) = apR (fun d => A (ix2 k d)) (fun d => P (ix2 k d)) :=
    funext fun d => v22_at A P k d
  rw [v124_at, hP, hA, v103_at, v41_at]
  rfl

end Cert.Hyp.RefRead

end
-- ==== Proof.AlgebraCoe.lean ====
/-
  Small facts about the extended-real operations on real arguments: the values of the three literals,
  the trivial factors √1 = 1^(1/2) = 1, and the coercion ℝ → EReal pushed through quotients, finite
  sums, max and min.
-/
import proofs.«110573_j34213709480136_1_alg».proof.Proof.Spec

noncomputable section

namespace Cert.Hyp

open Idealize.ShloMosaic

/-- The word 0x3727C5AC denotes 10995116 · 2⁻⁴⁰. -/
theorem eps5_eval : eps5 = ((10995116 / 1099511627776 : ℝ) : EReal) := by
  unfold eps5
  simp [Ideal.ofBits, Ideal.ieee, -EReal.coe_mul]
  norm_num

/-- ε₅ is a positive real. -/
theorem eps5_real : ∃ e : ℝ, 0 < e ∧ eps5 = (e : EReal) :=
  ⟨10995116 / 1099511627776, by norm_num, eps5_eval⟩

/-- The word 0x38D1B717 denotes 13743895 · 2⁻³⁷. -/
theorem dlit_eval : dlit = ((13743895 / 137438953472 : ℝ) : EReal) := by
  unfold dlit
  simp [Ideal.ofBits, Ideal.ieee, -EReal.coe_mul]
  norm_num

/-- 1 ^ (1/2) = 1. -/
theorem sqrtC_eq : sqrtC = one := by
  unfold sqrtC
  rw [Ideal.pow_coe_coe]
  exact congrArg (fun r : ℝ => (r : EReal)) (Real.one_rpow (1 / 2))

/-- √1 = 1. -/
theorem sqrt_one_eq : Ideal.sqrt one = one := by
  rw [Ideal.sqrt_coe, if_neg (by norm_num), Real.sqrt_one]

/-- z / 1 = z for every extended real z. -/
theorem div_one_eq (z : EReal) : Ideal.div z one = z := by
  rw [Ideal.div_coe one_ne_zero, one_div_one, EReal.coe_one, mul_one]

/-- 1 · z = z for every extended real z. -/
theorem one_mul_eq (z : EReal) : one * z = z := by
  show (1 : EReal) * z = z
  exact one_mul z

/-- 1/1 - 13743895 · 2⁻³⁷ = 137425209577 · 2⁻³⁷. -/
theorem clamp_eq : Ideal.div one one - dlit = clamp := by
  rw [div_one_eq, dlit_eval, ← EReal.coe_sub]
  congr 1
  norm_num

/-- The quotient of two reals with nonzero denominator is the real quotient. -/
theorem div_coe_coe {b : ℝ} (hb : b ≠ 0) (a : ℝ) :
    Ideal.div (a : EReal) (b : EReal) = ((a / b : ℝ) : EReal) := by
  rw [Ideal.div_coe hb, ← EReal.coe_mul, mul_one_div]

/-- A finite sum of reals, taken in the extended reals, is the real sum. -/
theorem sum_coe {ι : Type*} (s : Finset ι) (f : ι → ℝ) :
    ∑ d ∈ s, ((f d : ℝ) : EReal) = ((∑ d ∈ s, f d : ℝ) : EReal) := by
  classical
  induction s using Finset.induction_on with
  | empty => simp
  | insert a s ha ih => rw [Finset.sum_insert ha, Finset.sum_insert ha, ih, EReal.coe_add]

theorem coe_max (a b : ℝ) : max (a : EReal) (b : EReal) = ((max a b : ℝ) : EReal) :=
  (EReal.coe_strictMono.monotone.map_max).symm

theorem coe_min (a b : ℝ) : min (a : EReal) (b : EReal) = ((min a b : ℝ) : EReal) :=
  (EReal.coe_strictMono.monotone.map_min).symm

/-- The squared norm of a real row is the real sum of squares. -/
theorem sq_coe (f : Fin 512 → ℝ) :
    sq (fun d => (f d : EReal)) = ((∑ d, f d * f d : ℝ) : EReal) := by
  unfold sq
  simp only [← EReal.coe_mul]
  exact sum_coe _ _

/-- The inner product of two real rows is the real inner product. -/
theorem dot_coe (f g : Fin 512 → ℝ) :
    dot (fun d => (f d : EReal)) (fun d => (g d : EReal)) = ((∑ d, f d * g d : ℝ) : EReal) := by
  unfold dot
  simp only [← EReal.coe_mul]
  exact sum_coe _ _

end Cert.Hyp

end
-- ==== Proof.AlgebraReal.lean ====
/-
  The real-number identities behind the two arrangements of the Möbius sum: its inner product with a
  row and its squared norm, from five inner products; and the positivity of its denominator.
-/
import Idealize.ShloMosaic.PureOps.Ideal

namespace Cert.Hyp.RealAlg

variable {ι : Type*} [Fintype ι]

/-- By Cauchy–Schwarz ⟨x,P⟩² ≤ ‖x‖²‖P‖², so 1 - 2⟨x,P⟩ + ‖P‖²‖x‖² ≥ (1 - ⟨x,P⟩)² ≥ 0: the Möbius
    denominator is at least the positive constant added to it. -/
theorem den_pos (x P : ι → ℝ) (e : ℝ) (he : 0 < e) :
    0 < 1 - 2 * (∑ d, x d * P d) + (∑ d, P d * P d) * (∑ d, x d * x d) + e := by
  have cs := Finset.sum_mul_sq_le_sq_mul_sq Finset.univ x P
  simp only [pow_two] at cs
  nlinarith [mul_self_nonneg (1 - ∑ d, x d * P d)]

/-- The inner product of the Möbius sum (c₁(-P) + c₂x)/D with A, from ⟨P,A⟩ and ⟨x,A⟩. -/
theorem sum_mob_mul (x P A : ι → ℝ) (c1 c2 D : ℝ) :
    ∑ d, (c1 * (-(P d)) + c2 * x d) / D * A d
      = (c1 * (-(∑ d, P d * A d)) + c2 * (∑ d, x d * A d)) / D := by
  calc ∑ d, (c1 * (-(P d)) + c2 * x d) / D * A d
      = ∑ d, (-(c1 / D) * (P d * A d) + c2 / D * (x d * A d)) :=
        Finset.sum_congr rfl fun d _ => by ring
    _ = -(c1 / D) * ∑ d, P d * A d + c2 / D * ∑ d, x d * A d := by
        rw [Finset.sum_add_distrib, ← Finset.mul_sum, ← Finset.mul_sum]
    _ = _ := by ring

/-- The squared norm of the Möbius sum (c₁(-P) + c₂x)/D, from ‖P‖², ⟨x,P⟩ and ‖x‖². -/
theorem sum_mob_sq (x P : ι → ℝ) (c1 c2 D : ℝ) :
    ∑ d, (c1 * (-(P d)) + c2 * x d) / D * ((c1 * (-(P d)) + c2 * x d) / D)
      = (c1 * c1 * (∑ d, P d * P d) - 2 * c1 * c2 * (∑ d, x d * P d)
          + c2 * c2 * (∑ d, x d * x d)) / (D * D) := by
  calc ∑ d, (c1 * (-(P d)) + c2 * x d) / D * ((c1 * (-(P d)) + c2 * x d) / D)
      = ∑ d, (c1 * c1 / (D * D) * (P d * P d) + -(2 * c1 * c2 / (D * D)) * (x d * P d)
          + c2 * c2 / (D * D) * (x d * x d)) :=
        Finset.sum_congr rfl fun d _ => by ring
    _ = c1 * c1 / (D * D) * ∑ d, P d * P d + -(2 * c1 * c2 / (D * D)) * ∑ d, x d * P d
          + c2 * c2 / (D * D) * ∑ d, x d * x d := by
        rw [Finset.sum_add_distrib, Finset.sum_add_distrib, ← Finset.mul_sum, ← Finset.mul_sum,
          ← Finset.mul_sum]
    _ = _ := by ring

end Cert.Hyp.RealAlg
-- ==== Proof.Algebra.lean ====
/-
  The reference's logit and the kernel's logit are the same extended real on real rows.

  1. The reference's extra factors are trivial: 1^(1/2) = 1, √1 = 1, 1 · z = z and z / 1 = z for every
     extended real z, and 1/1 - 13743895 · 2⁻³⁷ is the kernel's clamp. So the point P, the normal A and the
     two per-row numbers are the same functions on both sides, with no finiteness needed.
  2. On a real row p the norm max(‖p‖, ε₅) is a positive real, so every coordinate of P is real, and with a
     real a every coordinate of A is real.
  3. For real rows x, P, A the Möbius sum M = (c₁(-P) + c₂x)/D has a positive denominator D (Cauchy–Schwarz),
     and ⟨M, A⟩ = (c₁(-⟨P,A⟩) + c₂⟨x,A⟩)/D, ‖M‖² = (c₁²‖P‖² - 2c₁c₂⟨x,P⟩ + c₂²‖x‖²)/D². From there on both
     sides are the same expression of equal arguments.
-/
import proofs.«110573_j34213709480136_1_alg».proof.Proof.AlgebraCoe
import proofs.«110573_j34213709480136_1_alg».proof.Proof.AlgebraReal

noncomputable section

namespace Cert.Hyp

open Idealize.ShloMosaic

/-! ## The reference's per-row quantities are the kernel's -/

theorem unormR_eq (p : Row) : unormR p = unorm p := rfl

theorem thR_eq (p : Row) : thR p = th p := by
  unfold thR th
  rw [sqrtC_eq, one_mul_eq, unormR_eq]

theorem ppR_eq (p : Row) : ppR p = pp p := by
  funext d
  unfold ppR pp
  rw [thR_eq, sqrtC_eq, one_mul_eq, unormR_eq]

theorem apR_eq (a p : Row) : apR a p = ap a p := by
  funext d
  unfold apR ap conf
  rw [ppR_eq]

theorem anormR_eq (a p : Row) : anormR a p = anorm a p := by
  unfold anormR anorm
  rw [apR_eq]

theorem kvalR_eq (a p : Row) : kvalR a p = kval a p := by
  unfold kvalR kval
  rw [sqrt_one_eq, div_one_eq, ppR_eq, anormR_eq, clamp_eq]

/-! ## Real rows give real points -/

theorem pp_real (p : Fin 512 → ℝ) :
    ∃ P : Fin 512 → ℝ, pp (fun d => (p d : EReal)) = fun d => (P d : EReal) := by
  obtain ⟨e, he, hE⟩ := eps5_real
  have hu : unorm (fun d => (p d : EReal))
      = ((max (Real.sqrt (∑ d, p d * p d)) e : ℝ) : EReal) := by
    unfold unorm
    rw [sq_coe, Ideal.sqrt_coe,
      if_neg (not_lt.2 (Finset.sum_nonneg fun d _ => mul_self_nonneg (p d))), hE, coe_max]
  have hu0 : max (Real.sqrt (∑ d, p d * p d)) e ≠ 0 :=
    (lt_of_lt_of_le he (le_max_right _ _)).ne'
  have ht : th (fun d => (p d : EReal))
      = ((Real.tanh (min 15 (max (-15) (max (Real.sqrt (∑ d, p d * p d)) e))) : ℝ) : EReal) := by
    unfold th
    rw [hu, coe_max, coe_min, Ideal.tanh_coe]
  refine ⟨fun d => Real.tanh (min 15 (max (-15) (max (Real.sqrt (∑ d, p d * p d)) e))) * p d
      / max (Real.sqrt (∑ d, p d * p d)) e, ?_⟩
  funext d
  unfold pp
  rw [ht, hu, ← EReal.coe_mul, div_coe_coe hu0]

theorem ap_real (a p : Fin 512 → ℝ) :
    ∃ A : Fin 512 → ℝ, ap (fun d => (a d : EReal)) (fun d => (p d : EReal)) = fun d => (A d : EReal) := by
  obtain ⟨P, hP⟩ := pp_real p
  refine ⟨fun d => a d * (1 - 1 * ∑ d, P d * P d), ?_⟩
  funext d
  unfold ap conf
  rw [hP, sq_coe, ← EReal.coe_mul, ← EReal.coe_sub, ← EReal.coe_mul]

/-! ## The two arrangements on real rows -/

theorem alR_coe (xp y2 : ℝ) :
    one + two * one * ((-xp : ℝ) : EReal) + one * (y2 : EReal) = ((1 - 2 * xp + y2 : ℝ) : EReal) := by
  simp only [one, two, ← EReal.coe_mul, ← EReal.coe_add]
  congr 1
  ring

theorem beR_coe (p2 : ℝ) : one - one * (p2 : EReal) = ((1 - p2 : ℝ) : EReal) := by
  simp only [one, ← EReal.coe_mul, ← EReal.coe_sub]
  congr 1
  ring

theorem dnR_coe (xp p2 y2 e : ℝ) :
    one + two * one * ((-xp : ℝ) : EReal) + one * one * (p2 : EReal) * (y2 : EReal) + (e : EReal)
      = ((1 - 2 * xp + p2 * y2 + e : ℝ) : EReal) := by
  simp only [one, two, ← EReal.coe_mul, ← EReal.coe_add]
  congr 1
  ring

theorem alK_coe (xp y2 : ℝ) :
    one - two * (xp : EReal) + one * (y2 : EReal) = ((1 - 2 * xp + y2 : ℝ) : EReal) := by
  simp only [one, two, ← EReal.coe_mul, ← EReal.coe_sub, ← EReal.coe_add]
  congr 1
  ring

theorem dnK_coe (xp p2 y2 e : ℝ) :
    one - two * (xp : EReal) + one * (p2 : EReal) * (y2 : EReal) + (e : EReal)
      = ((1 - 2 * xp + p2 * y2 + e : ℝ) : EReal) := by
  simp only [one, two, ← EReal.coe_mul, ← EReal.coe_sub, ← EReal.coe_add]
  congr 1
  ring

/-- One coordinate of the Möbius sum, on reals. -/
theorem mob_coe (c1 c2 D : ℝ) (hD : D ≠ 0) (Pd xd : ℝ) :
    Ideal.div ((c1 : EReal) * -(Pd : EReal) + (c2 : EReal) * (xd : EReal)) (D : EReal)
      = (((c1 * (-Pd) + c2 * xd) / D : ℝ) : EReal) := by
  rw [← EReal.coe_neg, ← EReal.coe_mul, ← EReal.coe_mul, ← EReal.coe_add, div_coe_coe hD]

/-- The reference's numerator 2·√1·⟨M, A⟩ is the kernel's 2·(c₁(-⟨P,A⟩) + c₂⟨x,A⟩)/D. -/
theorem refNum_eq (x P A : Fin 512 → ℝ) (c1 c2 D : ℝ) (hD : D ≠ 0) :
    two * one * ∑ d, Ideal.div ((c1 : EReal) * -((P d : ℝ) : EReal) + (c2 : EReal) * ((x d : ℝ) : EReal))
        (D : EReal) * ((A d : ℝ) : EReal)
      = Ideal.div (two * ((c1 : EReal) * (0 - ((∑ d, P d * A d : ℝ) : EReal))
          + (c2 : EReal) * ((∑ d, x d * A d : ℝ) : EReal))) (D : EReal) := by
  simp only [mob_coe c1 c2 D hD]
  simp only [← EReal.coe_mul]
  rw [sum_coe, RealAlg.sum_mob_mul]
  simp only [one, two, zero_sub, ← EReal.coe_neg, ← EReal.coe_mul, ← EReal.coe_add]
  rw [div_coe_coe hD]
  congr 1
  ring

/-- The reference's ‖M‖² is the kernel's (c₁²‖P‖² - 2c₁c₂⟨x,P⟩ + c₂²‖x‖²)/D². -/
theorem refSq_eq (x P : Fin 512 → ℝ) (c1 c2 D : ℝ) (hD : D ≠ 0) :
    ∑ d, Ideal.div ((c1 : EReal) * -((P d : ℝ) : EReal) + (c2 : EReal) * ((x d : ℝ) : EReal)) (D : EReal)
        * Ideal.div ((c1 : EReal) * -((P d : ℝ) : EReal) + (c2 : EReal) * ((x d : ℝ) : EReal)) (D : EReal)
      = Ideal.div ((c1 : EReal) * (c1 : EReal) * ((∑ d, P d * P d : ℝ) : EReal)
          - two * (c1 : EReal) * (c2 : EReal) * ((∑ d, x d * P d : ℝ) : EReal)
          + (c2 : EReal) * (c2 : EReal) * ((∑ d, x d * x d : ℝ) : EReal)) ((D : EReal) * (D : EReal)) := by
  simp only [mob_coe c1 c2 D hD]
  simp only [← EReal.coe_mul]
  rw [sum_coe, RealAlg.sum_mob_sq]
  simp only [two, ← EReal.coe_mul, ← EReal.coe_sub, ← EReal.coe_add]
  rw [div_coe_coe (mul_ne_zero hD hD)]

theorem logit_real (x P A : Fin 512 → ℝ) (an kv : EReal) :
    logitR (fun d => (x d : EReal)) (fun d => (P d : EReal)) (fun d => (A d : EReal)) an kv
      = logitK (fun d => (x d : EReal)) (fun d => (P d : EReal)) (fun d => (A d : EReal))
          (sq fun d => (P d : EReal)) (dot (fun d => (P d : EReal)) fun d => (A d : EReal)) an kv := by
  obtain ⟨e, he, hE⟩ := eps5_real
  have hD := (RealAlg.den_pos x P e he).ne'
  have hxy : ∑ d : Fin 512, (-((P d : ℝ) : EReal)) * ((x d : ℝ) : EReal)
      = ((-(∑ d, x d * P d) : ℝ) : EReal) := by
    simp only [← EReal.coe_neg, ← EReal.coe_mul]
    rw [sum_coe]
    congr 1
    rw [← Finset.sum_neg_distrib]
    exact Finset.sum_congr rfl fun d _ => by ring
  have hx2 : ∑ d : Fin 512, (-((P d : ℝ) : EReal)) * (-((P d : ℝ) : EReal))
      = ((∑ d, P d * P d : ℝ) : EReal) := by
    simp only [← EReal.coe_neg, ← EReal.coe_mul]
    rw [sum_coe]
    congr 1
    exact Finset.sum_congr rfl fun d _ => by ring
  unfold logitR logitK
  simp only []
  rw [hxy, hx2, sq_coe, sq_coe, dot_coe, dot_coe, dot_coe, hE, sqrt_one_eq,
    alR_coe, beR_coe, dnR_coe, alK_coe, dnK_coe,
    refNum_eq x P A _ _ _ hD, refSq_eq x P _ _ _ hD]

/-! ## The two logits agree on real rows -/

theorem refLogit_eq_kernelLogit (x a p : Row)
    (hx : ∀ d, ∃ r : ℝ, x d = (r : EReal)) (ha : ∀ d, ∃ r : ℝ, a d = (r : EReal))
    (hp : ∀ d, ∃ r : ℝ, p d = (r : EReal)) :
    refLogit x a p = kernelLogit x a p := by
  choose xr hxr using hx
  choose ar har using ha
  choose pr hpr using hp
  obtain rfl : x = fun d => (xr d : EReal) := funext hxr
  obtain rfl : a = fun d => (ar d : EReal) := funext har
  obtain rfl : p = fun d => (pr d : EReal) := funext hpr
  obtain ⟨P, hP⟩ := pp_real pr
  obtain ⟨A, hA⟩ := ap_real ar pr
  unfold refLogit kernelLogit
  rw [ppR_eq, apR_eq, anormR_eq, kvalR_eq, hP, hA]
  exact logit_real xr P A _ _

end Cert.Hyp

end
-- ==== Proof.RefValue.lean ====
/-
  The reference's result is the same array: its run's term, read at (n, k), is the reference's arithmetic of row n of x and
  row k of a and p, which on rows of real numbers is the kernel's arithmetic of the same rows.
-/
import proofs.«110573_j34213709480136_1_alg».proof.Proof.RefRead
import proofs.«110573_j34213709480136_1_alg».proof.Proof.Algebra
import proofs.«110573_j34213709480136_1_alg».proof.Proof.Result

noncomputable section

namespace Cert.Hyp

open Idealize.ShloMosaic Idealize.ShloMosaic.ValueIdx

/-- On arrays of real numbers the reference's last stage is the array of logits in the kernel's arithmetic. -/
theorem ref_result (X : (⟨2, ![2048, 512]⟩ : Shape).Idx → EReal) (A P : (⟨2, ![256, 512]⟩ : Shape).Idx → EReal)
    (hX : ∀ i, ∃ r : ℝ, X i = (r : EReal)) (hA : ∀ i, ∃ r : ℝ, A i = (r : EReal)) (hP : ∀ i, ∃ r : ℝ, P i = (r : EReal)) :
    Cert.ReferenceIdeal.Read.val_main_v124 (F := Ideal) X A P = result X A P := by
  funext i
  obtain ⟨n, k, rfl⟩ : ∃ (n : Fin 2048) (k : Fin 256), i = ix2 n k := ⟨i 0, i 1, eq_ix2 i⟩
  rw [RefRead.result_apply]
  exact refLogit_eq_kernelLogit _ _ _ (fun d => hX _) (fun d => hA _) (fun d => hP _)

end Cert.Hyp

end
-- ==== Proof.FiniteInputs.lean ====
/-
  The finiteness precondition read back: when |x| < +∞ holds at every element of the three arrays (the
  three conjuncts of the printed predicate, each an "all" over both axes), every element is a real number.
-/
import proofs.«110573_j34213709480136_1_alg».proof.Pre_finite_inputs
import Idealize.ShloMosaic.PureOps.Ideal
import Idealize.ShloMosaic.Lib.ReduceAll
import Idealize.ShloMosaic.Lib.ValueIdx

noncomputable section

namespace Cert.Hyp

open Idealize.ShloMosaic

/-- The rank-0 shape has one index. -/
instance subsingleton_scalar_idx : Subsingleton Cert.Pre_finite_inputs.S_.Idx :=
  ⟨fun _ _ => funext fun d => d.elim0⟩

/-- The word 0x7F800000 denotes +∞. -/
theorem inf_word_eq_top : Ideal.ofBits .f32 0x7F800000#32 = ⊤ := by
  simp [Ideal.ofBits, Ideal.ieee]

/-- An extended real with max(x, -x) < +∞ is a real: at ⊥ and at ⊤ the maximum is ⊤. -/
theorem real_of_abs_lt_inf (x : EReal)
    (h : Ideal.cmp .olt (max x (-x)) (Ideal.ofBits .f32 0x7F800000#32) = 1#1) :
    ∃ r : ℝ, x = (r : EReal) := by
  rw [inf_word_eq_top] at h
  have hlt : max x (-x) < ⊤ := by
    by_contra hn
    have hd : decide (max x (-x) < ⊤) = false := decide_eq_false hn
    have h' : BitVec.ofBool (decide (max x (-x) < ⊤)) = 1#1 := h
    rw [hd] at h'
    exact absurd h' (by decide)
  induction x using EReal.rec with
  | bot => simp at hlt
  | coe r => exact ⟨r, rfl⟩
  | top => simp at hlt

theorem real_of_finite_inputs [Cert.Pre_finite_inputs.Facts]
    (X : FVec Ideal Cert.Pre_finite_inputs.S2048x512 .f32)
    (A P : FVec Ideal Cert.Pre_finite_inputs.S256x512 .f32)
    (h : Cert.Pre_finite_inputs.fn (F := Ideal) X A P = fun _ => 1#1) :
    (∀ i, ∃ r : ℝ, X i = (r : EReal)) ∧ (∀ i, ∃ r : ℝ, A i = (r : EReal))
      ∧ (∀ i, ∃ r : ℝ, P i = (r : EReal)) := by
  have h0 := congrFun h ValueIdx.ix0
  unfold Cert.Pre_finite_inputs.fn at h0
  dsimp only at h0
  obtain ⟨h12, h3⟩ := IntOp.andi_eq_one.1 h0
  obtain ⟨h1, h2⟩ := IntOp.andi_eq_one.1 h12
  refine ⟨fun i => ?_, fun i => ?_, fun i => ?_⟩
  · exact real_of_abs_lt_inf (X i) (Host.reduce_andi_all _ _ _ _ _ h1 i)
  · exact real_of_abs_lt_inf (A i) (Host.reduce_andi_all _ _ _ _ _ h2 i)
  · exact real_of_abs_lt_inf (P i) (Host.reduce_andi_all _ _ _ _ _ h3 i)

end Cert.Hyp

end
-- ==== Proof.lean ====
/-
  The five claims of this certificate.

  The kernel is two pipelined regions. The first maps the rows p_k into the unit ball, P_k = tanh(u)·p_k/u with
  u = max(‖p_k‖, ε₅), rescales the normals, A_k = a_k·(1 - ‖P_k‖²), and tabulates per k the numbers ‖P_k‖², ⟨P_k, A_k⟩,
  max(‖A_k‖, ε₇) and 2/(1 - min(‖P_k‖², 1 - δ))·max(‖A_k‖, ε₇), δ the binary fraction the reference's 1e-4 literal denotes.
  The second, per block of 512 rows of x, computes the logit of x_n against (P_k, A_k) from the inner products ⟨x_n, P_k⟩,
  ⟨x_n, A_k⟩ and ‖x_n‖². The reference forms the Möbius sum of -P_k and x_n coordinate by coordinate and takes its inner
  product with A_k and its squared norm. On the extended reals the two agree wherever every input is a real number: the
  Möbius sum's denominator 1 - 2⟨x,P⟩ + ‖P‖²‖x‖² + ε₅ is positive by the Cauchy–Schwarz inequality, so the quotient may be
  taken out of the two sums over the 512 coordinates, and from the ratio on the two programs apply the same operations to
  equal numbers. The three frames are the programs' runs; `preserves` is one statement per named constant.
-/
import proofs.«110573_j34213709480136_1_alg».proof.Defs
import proofs.«110573_j34213709480136_1_alg».proof.Proof.Gen.Kernel
import proofs.«110573_j34213709480136_1_alg».proof.Proof.Gen.Kernel.Skeleton
import proofs.«110573_j34213709480136_1_alg».proof.Proof.Gen.Kernel.Launch
import proofs.«110573_j34213709480136_1_alg».proof.Proof.Gen.Kernel.Points
import proofs.«110573_j34213709480136_1_alg».proof.Proof.Gen.Kernel.Frame
import proofs.«110573_j34213709480136_1_alg».proof.Proof.Gen.KernelIdeal
import proofs.«110573_j34213709480136_1_alg».proof.Proof.Gen.KernelIdeal.Skeleton
import proofs.«110573_j34213709480136_1_alg».proof.Proof.Gen.KernelIdeal.Launch
import proofs.«110573_j34213709480136_1_alg».proof.Proof.Gen.KernelIdeal.Points
import proofs.«110573_j34213709480136_1_alg».proof.Proof.Gen.KernelIdeal.Frame
import proofs.«110573_j34213709480136_1_alg».proof.Proof.Gen.ReferenceIdeal
import proofs.«110573_j34213709480136_1_alg».proof.Proof.Gen.Pre_finite_inputs
import proofs.«110573_j34213709480136_1_alg».proof.Proof.Gen.ReferenceIdeal.Read
import proofs.«110573_j34213709480136_1_alg».proof.Proof.KernelRun
import proofs.«110573_j34213709480136_1_alg».proof.Proof.KernelValue
import proofs.«110573_j34213709480136_1_alg».proof.Proof.RefValue
import proofs.«110573_j34213709480136_1_alg».proof.Proof.FiniteInputs
import Idealize.ShloMosaic.Adequacy
import Idealize.ShloMosaic.Init

noncomputable section

namespace Cert.Proof

open Idealize.ShloMosaic Idealize.SL.Sem

/-- The kernel as printed runs and leaves its arguments as launched. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference's run, with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Each named constant is the value the certificate's table gives it: thirteen sites of the constant 1, and the clamp of
    ‖P‖², one minus the reference's 1e-4 literal. -/
theorem preserves : Cert.preserves_Kernel_KernelIdeal :=
  ⟨IdealRules.named_const.statement Cert.KernelIdeal.κ "a_exact_inv_1" .f32 0x3F800000#32 ((1 : ℝ) : EReal) rfl,
   IdealRules.named_const.statement Cert.KernelIdeal.κ "a_exact_inv_1" .f32 0x3F800000#32 ((1 : ℝ) : EReal) rfl,
   IdealRules.named_const.statement Cert.KernelIdeal.κ "fold_c_137425209577_137438953472" .f32 0x3F7FF972#32 ((137425209577 / 137438953472 : ℝ) : EReal) rfl,
   IdealRules.named_const.statement Cert.KernelIdeal.κ "a_exact_inv_1" .f32 0x3F800000#32 ((1 : ℝ) : EReal) rfl,
   IdealRules.named_const.statement Cert.KernelIdeal.κ "a_exact_inv_1" .f32 0x3F800000#32 ((1 : ℝ) : EReal) rfl,
   IdealRules.named_const.statement Cert.KernelIdeal.κ "a_exact_inv_1" .f32 0x3F800000#32 ((1 : ℝ) : EReal) rfl,
   IdealRules.named_const.statement Cert.KernelIdeal.κ "a_exact_inv_1" .f32 0x3F800000#32 ((1 : ℝ) : EReal) rfl,
   IdealRules.named_const.statement Cert.KernelIdeal.κ "a_exact_inv_1" .f32 0x3F800000#32 ((1 : ℝ) : EReal) rfl,
   IdealRules.named_const.statement Cert.KernelIdeal.κ "a_exact_inv_1" .f32 0x3F800000#32 ((1 : ℝ) : EReal) rfl,
   IdealRules.named_const.statement Cert.KernelIdeal.κ "a_exact_inv_1" .f32 0x3F800000#32 ((1 : ℝ) : EReal) rfl,
   IdealRules.named_const.statement Cert.KernelIdeal.κ "a_exact_inv_1" .f32 0x3F800000#32 ((1 : ℝ) : EReal) rfl,
   IdealRules.named_const.statement Cert.KernelIdeal.κ "a_exact_inv_1" .f32 0x3F800000#32 ((1 : ℝ) : EReal) rfl,
   IdealRules.named_const.statement Cert.KernelIdeal.κ "a_exact_inv_1" .f32 0x3F800000#32 ((1 : ℝ) : EReal) rfl,
   IdealRules.named_const.statement Cert.KernelIdeal.κ "a_exact_inv_1" .f32 0x3F800000#32 ((1 : ℝ) : EReal) rfl⟩

/-- From memories agreeing on x, a and p, all real numbers, both programs end with the array of logits `Cert.Hyp.result`. -/
theorem algebraic : Cert.algebraic_KernelIdeal_ReferenceIdeal := by
  intro m ρ m' ρ' hpre hagree
  refine ⟨fun c => Cert.Hyp.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.Hyp.KernelValue.result_eq m ρ c), (h c).2⟩)
      (Cert.Hyp.KernelRun.run_result (F := Ideal) m ρ)
  · refine (θ_run Cert.ReferenceIdeal.defs _ _).mono (fun r h c => ⟨?_, (h c).2⟩)
      (Cert.ReferenceIdeal.Value.run (F := Ideal) m' ρ')
    obtain ⟨hX, hA, hP⟩ := Cert.Hyp.real_of_finite_inputs _ _ _ (hpre c)
    rw [(h c).1, Cert.ReferenceIdeal.Read.val_main_v124_eq, (hagree c).1, (hagree c).2.1, (hagree c).2.2]
    exact Cert.Hyp.ref_result _ _ _ hX hA hP

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
